-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x128 .f32) (main_arg3 : FVec F S128 .f32) (main_arg4 : FVec F S128x128 .f32) (main_arg5 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S10000x64 : Shape := ⟨2, ![10000, 64]⟩
abbrev S10000x128 : Shape := ⟨2, ![10000, 128]⟩
abbrev S850000x128 : Shape := ⟨2, ![850000, 128]⟩
abbrev S10000x1 : Shape := ⟨2, ![10000, 1]⟩
abbrev S1x128 : Shape := ⟨2, ![1, 128]⟩

abbrev nBuf : Space → Nat
  | .hbm => 101
  | .vmem => 32
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x128, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000, .f32⟩
  | .hbm, ⟨83, _⟩ => ⟨S850000, .f32⟩
  | .hbm, ⟨84, _⟩ => ⟨S850000x1, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000x128, .f32⟩
  | .hbm, ⟨94, _⟩ => ⟨S850000x128, .f32⟩
  | .hbm, ⟨95, _⟩ => ⟨S_, .f32⟩
  | .hbm, ⟨96, _⟩ => ⟨S50000x128, .f32⟩
  | .hbm, ⟨97, _⟩ => ⟨S850000x1, .i32⟩
  | .hbm, ⟨98, _⟩ => ⟨S50000x128, .f32⟩
  | .hbm, ⟨99, _⟩ => ⟨S1x128, .f32⟩
  | .hbm, ⟨100, _⟩ => ⟨S50000x128, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![85], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![85], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  shapeCasts_S850000_S850000x1 : S850000.ShapeCasts S850000x1
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  scatter_S50000_S850000x1_S850000_n_0_0_1_wf : ScatterDims.WF S50000 S850000x1 S850000 [] [0] [0] 1
  dot_S10000x64_S64x128_S10000x128_1_0_0_1_n_n_wf : DotDims.WF S10000x64 S64x128 S10000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S850000x128.size a
  hwx1_0 : ∀ i : grid1.Coords, EltTy.bits .f32 = 32 ∨ (Rect.block (s := S850000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S850000x1.size a
  hwx1_1 : ∀ i : grid1.Coords, EltTy.bits .f32 = 32 ∨ (Rect.block (s := S850000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S850000x128.size a
  hwx1_2 : ∀ i : grid1.Coords, EltTy.bits .f32 = 32 ∨ (Rect.block (s := S850000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S850000x128.size a
  hwx4_0 : ∀ i : grid4.Coords, EltTy.bits .f32 = 32 ∨ (Rect.block (s := S850000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S850000x1.size a
  hwx4_1 : ∀ i : grid4.Coords, EltTy.bits .f32 = 32 ∨ (Rect.block (s := S850000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S850000x128.size a
  hwx4_2 : ∀ i : grid4.Coords, EltTy.bits .f32 = 32 ∨ (Rect.block (s := S850000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S50000x128.size a
  hwx5_2 : ∀ i : grid5.Coords, EltTy.bits .f32 = 32 ∨ (Rect.block (s := S50000x128) S10000x128.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v69) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x128 : Shape := ⟨2, ![50000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x128, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x128, .f32⟩
  | .hbm, ⟨112, _⟩ => ⟨S850000x1, .f32⟩
  | .hbm, ⟨113, _⟩ => ⟨S850000x128, .f32⟩
  | .hbm, ⟨114, _⟩ => ⟨S850000x128, .f32⟩
  | .hbm, ⟨115, _⟩ => ⟨S_, .f32⟩
  | .hbm, ⟨116, _⟩ => ⟨S50000x128, .f32⟩
  | .hbm, ⟨117, _⟩ => ⟨S850000x1, .i32⟩
  | .hbm, ⟨118, _⟩ => ⟨S50000x128, .f32⟩
  | .hbm, ⟨119, _⟩ => ⟨S1x128, .f32⟩
  | .hbm, ⟨120, _⟩ => ⟨S50000x128, .f32⟩
  | .hbm, ⟨121, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x64_S64x128_S50000x128_1_0_0_1_n_n_wf : DotDims.WF S50000x64 S64x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  A two-layer graph convolution as a composition of whole-array operations, in the reference's own spelling.

  The edge list is an array of two rows, sources and destinations; every node is appended to both as a self-loop
  (`srcOf`, `dstOf`).  The degree of a node counts the edges that end at it (`degOf`: ones scatter-added at the
  destinations); `dinvOf` is its inverse square root where the degree is positive and zero elsewhere.  An edge's weight
  is the product of that number at its two ends (`normOf`; an end that reads negative as a signed word is first moved
  up by the node count, `wrapOf`).  One layer multiplies the features by a weight matrix, gathers the product's row at
  every edge's source (`gatherRows`), scales the gathered row by the edge's weight (`msgOf`), adds the scaled rows up
  at the edges' destinations (`aggOf`), and adds a bias row (`biasOf`).  The first layer is followed by the maximum
  with zero; the second is the result.
-/
import proofs.«124668_j44135083933972_1_alg».proof.Proof.RefRun

noncomputable section

namespace Cert.ReferenceIdeal.Spec

open Cert.ReferenceIdeal Cert.ReferenceIdeal.Gen Idealize.ShloMosaic Idealize.ShloMosaic.TcCoe Idealize.SL.Sem

variable {F : FTy → Type} [FloatOps F]

/-- The edges' sources, then every node once. -/
def srcOf (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The edges' destinations, then every node once. -/
def dstOf (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A node number that reads negative is moved up by the node count. -/
def wrapOf (ix : (⟨S850000, .i32⟩ : BufTy).Contents (Elt F)) : (⟨S850000, .i32⟩ : BufTy).Contents (Elt F) :=
  select (cmpi .slt ix (broadcastInDim S850000 ![] bcast_S_S850000 (constantI S_ 32 0#32))) (addi ix (broadcastInDim S850000 ![] bcast_S_S850000 (constantI S_ 32 50000#32))) ix

/-- A vector over the edges as a one-column array. -/
def colOf {α : Type} (x : S850000.Idx → α) : S850000x1.Idx → α :=
  broadcastInDim S850000x1 ![0] bcast_S850000_S850000x1_0 x

/-- How many edges end at each node. -/
def degOf (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- The inverse square root of the degree where it is positive, zero elsewhere. -/
def dinvOf (dst : (⟨S850000, .i32⟩ : BufTy).Contents (Elt F)) : (⟨S50000, .f32⟩ : BufTy).Contents (Elt F) :=
  select (cmpf (F := F) .ogt (degOf dst) (broadcastInDim S50000 ![] bcast_S_S50000 (constant S_ .f32 0x00000000#32))) (Host.rsqrt (degOf dst)) (broadcastInDim S50000 ![] bcast_S_S50000 (id (constant S_ .f32 0x00000000#32)))

/-- An edge's weight: the product of `dinv` at its source and at its destination. -/
def normOf (dinv : (⟨S50000, .f32⟩ : BufTy).Contents (Elt F)) (src dst : (⟨S850000, .i32⟩ : BufTy).Contents (Elt F)) : (⟨S850000, .f32⟩ : BufTy).Contents (Elt F) :=
  mulf (Host.gather gather_S50000_S850000x1_S850000_n_0_n_n_0_1_1 dinv (broadcastInDim S850000x1 ![0] bcast_S850000_S850000x1_0 (wrapOf src))) (Host.gather gather_S50000_S850000x1_S850000_n_0_n_n_0_1_1 dinv (broadcastInDim S850000x1 ![0] bcast_S850000_S850000x1_0 (wrapOf dst)))

/-- The row of `xw` at every edge's source. -/
def gatherRows (xw : (⟨S50000x128, .f32⟩ : BufTy).Contents (Elt F)) (src : (⟨S850000, .i32⟩ : BufTy).Contents (Elt F)) : (⟨S850000x128, .f32⟩ : BufTy).Contents (Elt F) :=
  Host.gather gather_S50000x128_S850000x1_S850000x128_1_0_n_n_0_1_1128 xw (broadcastInDim S850000x1 ![0] bcast_S850000_S850000x1_0 (wrapOf src))

/-- The gathered rows, each scaled by its edge's weight. -/
def msgOf (rows : (⟨S850000x128, .f32⟩ : BufTy).Contents (Elt F)) (norm : (⟨S850000, .f32⟩ : BufTy).Contents (Elt F)) : (⟨S850000x128, .f32⟩ : BufTy).Contents (Elt F) :=
  mulf rows (broadcastInDim S850000x128 ![0, 1] bcast_S850000x1_S850000x128_0_1 (broadcastInDim S850000x1 ![0] bcast_S850000_S850000x1_0 norm))

/-- The scaled rows added up at the edges' destinations. -/
def aggOf (msg : (⟨S850000x128, .f32⟩ : BufTy).Contents (Elt F)) (dst : (⟨S850000, .i32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 dst) msg

/-- A bias vector as an array with that row everywhere. -/
def biasOf (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

/-- The aggregation of one layer from the transformed features. -/
def convOf (xw : (⟨S50000x128, .f32⟩ : BufTy).Contents (Elt F)) (ei : (⟨S2x800000, .i32⟩ : BufTy).Contents (Elt F)) : (⟨S50000x128, .f32⟩ : BufTy).Contents (Elt F) :=
  aggOf (msgOf (gatherRows xw (srcOf ei)) (normOf (dinvOf (dstOf ei)) (srcOf ei) (dstOf ei))) (dstOf ei)

/-- The first layer: transform, aggregate, add the bias, take the maximum with zero. -/
def hiddenOf (z : (⟨S50000x64, .f32⟩ : BufTy).Contents (Elt F)) (ei : (⟨S2x800000, .i32⟩ : BufTy).Contents (Elt F))
    (W1 : (⟨S64x128, .f32⟩ : BufTy).Contents (Elt F)) (b1 : (⟨S128, .f32⟩ : BufTy).Contents (Elt F)) : (⟨S50000x128, .f32⟩ : BufTy).Contents (Elt F) :=
  maximumf (addf (convOf (Host.dotGeneral dot_S50000x64_S64x128_S50000x128_1_0_0_1_n_n none z W1) ei) (biasOf b1)) (broadcastInDim S50000x128 ![] bcast_S_S50000x128 (constant S_ .f32 0x00000000#32))

/-- The second layer on the first one's result. -/
def outOf (z : (⟨S50000x64, .f32⟩ : BufTy).Contents (Elt F)) (ei : (⟨S2x800000, .i32⟩ : BufTy).Contents (Elt F))
    (W1 : (⟨S64x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F)) : (⟨S50000x128, .f32⟩ : BufTy).Contents (Elt F) :=
  addf (convOf (Host.dotGeneral dot_S50000x128_S128x128_S50000x128_1_0_0_1_n_n none (hiddenOf z ei W1 b1) W2) ei) (biasOf b2)

set_option maxRecDepth 8192 in
/-- The reference's result is that composition of its arguments. -/
theorem res_eq (m : (ℓ : Loc nD τ sig) → Buf (Elt F) ℓ) (c : Dev nD) :
    Cert.ReferenceIdeal.ValueP.res_main_v87 m c
      = outOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v87 outOf hiddenOf convOf biasOf aggOf msgOf gatherRows normOf dinvOf degOf wrapOf dstOf srcOf
  rfl

end Cert.ReferenceIdeal.Spec

end
-- ==== Proof.KernelRun.lean ====
/-
  The idealized kernel's run with its result named.

  The program is six pipelined regions among stretches of host operations.  Its run is the chain of segments from the
  launch memory to the return; the contents of every unscoped buffer at the last boundary are the fold `W12` of that
  chain.  The run below ends, on every core, with the result buffer holding `W12` at that buffer and with the six
  argument arrays as launched.  What `W12` holds there as a function of the arguments is read off boundary by
  boundary in the modules that follow.
-/
import proofs.«124668_j44135083933972_1_alg».proof.Proof.Gen.KernelIdeal.Frame

set_option maxRecDepth 16384

noncomputable section

namespace Cert.KernelIdeal.ValueRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from the launch memory terminates without a fault; the result buffer ends at the last
    boundary's contents and every argument array ends as launched. -/
theorem run_last : θ_run defs (onTc (τ := τ) (main (F := F))) ⟨m, fun _ => 0, ρ⟩ (fun r => ∀ c : Dev nD,
      r.2.mem ((c.tc : Thread nD τ).loc main_v74) = W12 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v74 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

end Cert.KernelIdeal.ValueRun

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«124668_j44135083933972_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.LibTileOps.lean ====
/-
  The three array operations a two-layer graph convolution is made of, entry by entry, and the two ways each is spelt.

  * `matProd x w`: the matrix product, entry (p, c) the sum over k of x(p, k) · w(k, c).
  * `scaleRows x n`: row p of x multiplied by the p-th entry of a one-column array n.
  * `addRow x b`: a one-row array b added to every row of x; `addRowClamp x b` the same, then the maximum with the
    zero literal's value.

  Each is what a tiled kernel computes block by block, and each is also a composition of whole-array host operations:
  a dot_general; a product with a vector broadcast to one column and then along the rows; a sum with a vector broadcast
  to one row and then down the columns; and a maximum with a broadcast scalar.  A vector cast to a column (or a row)
  and the same vector broadcast to a column (or a row) are the same array, which is where the two spellings meet.
  Nothing here needs an entry to be finite: every equation is the same product, sum or maximum of the same entries.
  Generic in the extents A, K, B and in the records of the host operations.
-/
import Idealize.ShloMosaic.PureOps.Ideal.Laws
import Idealize.ShloMosaic.Lib.ValueIdx
import Idealize.ShloMosaic.Lib.ValueLayout
import Idealize.ShloMosaic.Lib.Pipeline.Value
import proofs.«124668_j44135083933972_1_alg».proof.Proof.LibPlainDotFormats
import proofs.«124668_j44135083933972_1_alg».proof.Proof.LibKeepdims
import proofs.«124668_j44135083933972_1_alg».proof.Proof.LibJoinedRows
import proofs.«124668_j44135083933972_1_alg».proof.Proof.LibRowBcast

noncomputable section

namespace Cert.LibTileOps

open Idealize.ShloMosaic Idealize.ShloMosaic.ValueIdx
open scoped BigOperators

variable {A K B : ℕ}

/-- The matrix product, entry by entry. -/
def matProd (x : FVec Ideal ⟨2, ![A, K]⟩ .f32) (w : FVec Ideal ⟨2, ![K, B]⟩ .f32) : FVec Ideal ⟨2, ![A, B]⟩ .f32 :=
  fun i => ∑ k : Fin K, x (ix2 (i 0) k) * w (ix2 k (i 1))

/-- Row `p` multiplied by entry `p` of a one-column array. -/
def scaleRows (x : FVec Ideal ⟨2, ![A, B]⟩ .f32) (n : FVec Ideal ⟨2, ![A, 1]⟩ .f32) : FVec Ideal ⟨2, ![A, B]⟩ .f32 :=
  fun i => x i * n (ix2 (i 0) (0 : Fin 1))

/-- A one-row array added to every row. -/
def addRow (x : FVec Ideal ⟨2, ![A, B]⟩ .f32) (b : FVec Ideal ⟨2, ![1, B]⟩ .f32) : FVec Ideal ⟨2, ![A, B]⟩ .f32 :=
  fun i => x i + b (ix2 (0 : Fin 1) (i 1))

/-- A one-row array added to every row, then the maximum with the zero literal's value. -/
def addRowClamp (x : FVec Ideal ⟨2, ![A, B]⟩ .f32) (b : FVec Ideal ⟨2, ![1, B]⟩ .f32) : FVec Ideal ⟨2, ![A, B]⟩ .f32 :=
  fun i => max (x i + b (ix2 (0 : Fin 1) (i 1))) (Ideal.ofBits .f32 0x00000000#32)

theorem matProd_apply (x : FVec Ideal ⟨2, ![A, K]⟩ .f32) (w : FVec Ideal ⟨2, ![K, B]⟩ .f32) (p : Fin A) (c : Fin B) :
    matProd x w (ix2 p c) = ∑ k : Fin K, x (ix2 p k) * w (ix2 k c) := rfl

theorem scaleRows_apply (x : FVec Ideal ⟨2, ![A, B]⟩ .f32) (n : FVec Ideal ⟨2, ![A, 1]⟩ .f32) (p : Fin A) (q : Fin B) :
    scaleRows x n (ix2 p q) = x (ix2 p q) * n (ix2 p (0 : Fin 1)) := rfl

theorem addRow_apply (x : FVec Ideal ⟨2, ![A, B]⟩ .f32) (b : FVec Ideal ⟨2, ![1, B]⟩ .f32) (p : Fin A) (q : Fin B) :
    addRow x b (ix2 p q) = x (ix2 p q) + b (ix2 (0 : Fin 1) q) := rfl

theorem addRowClamp_apply (x : FVec Ideal ⟨2, ![A, B]⟩ .f32) (b : FVec Ideal ⟨2, ![1, B]⟩ .f32) (p : Fin A) (q : Fin B) :
    addRowClamp x b (ix2 p q) = max (x (ix2 p q) + b (ix2 (0 : Fin 1) q)) (Ideal.ofBits .f32 0x00000000#32) := rfl

/-! ## The host spellings -/

/-- A host dot_general of plain dimension numbers is the matrix product. -/
theorem dotGeneral_eq_matProd {D : DotDims ⟨2, ![A, K]⟩ ⟨2, ![K, B]⟩ ⟨2, ![A, B]⟩} (h : Cert.LibPlainDot.Plain D)
    (prec : Option ContractPrecision) (x : FVec Ideal ⟨2, ![A, K]⟩ .f32) (w : FVec Ideal ⟨2, ![K, B]⟩ .f32) :
    Host.dotGeneral D prec x w = matProd x w := by
  funext i
  obtain ⟨p, c, rfl⟩ : ∃ (p : Fin A) (c : Fin B), i = ix2 p c := ⟨i 0, i 1, eq_ix2 i⟩
  simp only [Host.dotGeneral]
  exact h.dotGeneral_apply prec _ x w p c

/-- A product with a vector broadcast to one column and then along the rows scales row `p` by the vector's entry
    `p`: the vector cast to a column is the same column. -/
theorem mulf_bcast_col_eq_scaleRows
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2))
    (hc : (⟨1, ![A]⟩ : Shape).ShapeCasts ⟨2, ![A, 1]⟩)
    (y : FVec Ideal ⟨2, ![A, B]⟩ .f32) (n : FVec Ideal ⟨1, ![A]⟩ .f32) :
    mulf y (broadcastInDim ⟨2, ![A, B]⟩ ![0, 1] h2 (broadcastInDim ⟨2, ![A, 1]⟩ ![0] h1 n))
      = scaleRows y (shapeCast ⟨2, ![A, 1]⟩ n hc) := by
  funext i
  obtain ⟨p, q, rfl⟩ : ∃ (p : Fin A) (q : Fin B), i = ix2 p q := ⟨i 0, i 1, eq_ix2 i⟩
  rw [scaleRows_apply, mulf_apply, Cert.LibJoinedRows.bcast_col_rows_apply, Cert.LibJoinedRows.bcast_vec_col_apply,
    Cert.LibKeepdims.shapeCast_a_a1_apply]

/-- A sum with a vector broadcast to one row and then down the columns adds the vector's entry `q` to column `q`:
    the vector cast to a row is the same row. -/
theorem addf_bcast_row_eq_addRow
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (y : FVec Ideal ⟨2, ![A, B]⟩ .f32) (b : FVec Ideal ⟨1, ![B]⟩ .f32) :
    addf y (broadcastInDim ⟨2, ![A, B]⟩ ![0, 1] h2 (broadcastInDim ⟨2, ![1, B]⟩ ![1] h1 b))
      = addRow y (shapeCast ⟨2, ![1, B]⟩ b hc) := by
  funext i
  obtain ⟨p, q, rfl⟩ : ∃ (p : Fin A) (q : Fin B), i = ix2 p q := ⟨i 0, i 1, eq_ix2 i⟩
  rw [addRow_apply, addf_apply, Cert.LibRowBcast.bcast_vec_rows_apply, shapeCast_a_1a_apply]

/-- The same, followed by the maximum with a broadcast zero literal. -/
theorem maximumf_addf_bcast_row_eq_addRowClamp
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (h0 : (⟨0, ![]⟩ : Shape).BroadcastsInDim ⟨2, ![A, B]⟩ (![] : Fin 0 → Fin 2))
    (y : FVec Ideal ⟨2, ![A, B]⟩ .f32) (b : FVec Ideal ⟨1, ![B]⟩ .f32) :
    maximumf (addf y (broadcastInDim ⟨2, ![A, B]⟩ ![0, 1] h2 (broadcastInDim ⟨2, ![1, B]⟩ ![1] h1 b)))
        (broadcastInDim ⟨2, ![A, B]⟩ ![] h0 (constant (F := Ideal) ⟨0, ![]⟩ .f32 0x00000000#32))
      = addRowClamp y (shapeCast ⟨2, ![1, B]⟩ b hc) := by
  funext i
  obtain ⟨p, q, rfl⟩ : ∃ (p : Fin A) (q : Fin B), i = ix2 p q := ⟨i 0, i 1, eq_ix2 i⟩
  rw [addRowClamp_apply, maximumf_apply, addf_apply, Cert.LibRowBcast.bcast_vec_rows_apply, shapeCast_a_1a_apply,
    Cert.LibJoinedRows.bcast_scalar_apply, constant_apply]

end Cert.LibTileOps

end
-- ==== Proof.Payloads.lean ====
/-
  What each kernel body stores, read at an entry of its block.

  Six bodies, three kinds.  A product body multiplies its block of rows by the whole weight matrix into a zero
  accumulator; rounding the operands to a narrower format first does not change an extended real, so entry (p, q) is
  the sum over k of x(p, k) · w(k, q).  A scaling body multiplies entry (p, q) of its block by entry p of its
  one-column block.  A bias body adds entry q of its one-row block to entry (p, q), and the first of the two then
  takes the maximum with the zero literal's value.
-/
import proofs.«124668_j44135083933972_1_alg».proof.Proof.Gen.KernelIdeal.Skeleton
import proofs.«124668_j44135083933972_1_alg».proof.Proof.LibTileOps

noncomputable section

namespace Cert.KernelIdeal.Body

open Cert.KernelIdeal Cert.KernelIdeal.Gen Idealize.ShloMosaic Idealize.ShloMosaic.ValueIdx
open scoped BigOperators

/-- The first product's dimension numbers are those of a plain matrix product. -/
theorem plain0 : Cert.LibPlainDot.Plain dot_S10000x64_S64x128_S10000x128_1_0_0_1_n_n := ⟨rfl, rfl, rfl, rfl, rfl, rfl⟩

/-- So are the second product's. -/
theorem plain3 : Cert.LibPlainDot.Plain dot_S10000x128_S128x128_S10000x128_1_0_0_1_n_n := ⟨rfl, rfl, rfl, rfl, rfl, rfl⟩

/-- Body 0: a block of 10000 rows of width 64 times the 64 × 128 weights. -/
theorem pay0_apply (x0 : Vec Ideal S10000x64 .f32) (x1 : Vec Ideal S64x128 .f32) (p : Fin 10000) (q : Fin 128) :
    k0_pay1 (F := Ideal) x0 x1 (ix2 p q) = ∑ k : Fin 64, x0 (ix2 p k) * x1 (ix2 k q) := by
  unfold k0_pay1
  exact plain0.matmul_zero_apply_formats none _ _ p q

/-- Body 3: a block of 10000 rows of width 128 times the 128 × 128 weights. -/
theorem pay3_apply (x0 : Vec Ideal S10000x128 .f32) (x1 : Vec Ideal S128x128 .f32) (p : Fin 10000) (q : Fin 128) :
    k3_pay1 (F := Ideal) x0 x1 (ix2 p q) = ∑ k : Fin 128, x0 (ix2 p k) * x1 (ix2 k q) := by
  unfold k3_pay1
  rw [shapeCast_self]
  exact plain3.matmul_zero_apply_formats none _ _ p q

/-- Body 1: entry (p, q) times entry p of the column. -/
theorem pay1_apply (x0 : Vec Ideal S10000x128 .f32) (x1 : Vec Ideal S10000x1 .f32) (p : Fin 10000) (q : Fin 128) :
    k1_pay1 (F := Ideal) x0 x1 (ix2 p q) = x0 (ix2 p q) * x1 (ix2 p (0 : Fin 1)) := by
  unfold k1_pay1
  rw [shapeCast_self, shapeCast_self, mulf_apply, Cert.LibKeepdims.broadcastTo_a1_ab_apply]

/-- Body 4: the same. -/
theorem pay4_apply (x0 : Vec Ideal S10000x128 .f32) (x1 : Vec Ideal S10000x1 .f32) (p : Fin 10000) (q : Fin 128) :
    k4_pay1 (F := Ideal) x0 x1 (ix2 p q) = x0 (ix2 p q) * x1 (ix2 p (0 : Fin 1)) := by
  unfold k4_pay1
  rw [shapeCast_self, shapeCast_self, mulf_apply, Cert.LibKeepdims.broadcastTo_a1_ab_apply]

/-- Body 2: entry (p, q) plus entry q of the row, then the maximum with the zero literal's value. -/
theorem pay2_apply (x0 : Vec Ideal S10000x128 .f32) (x1 : Vec Ideal S1x128 .f32) (p : Fin 10000) (q : Fin 128) :
    k2_pay1 (F := Ideal) x0 x1 (ix2 p q)
      = max (x0 (ix2 p q) + x1 (ix2 (0 : Fin 1) q)) (Ideal.ofBits .f32 0x00000000#32) := by
  unfold k2_pay1
  rw [shapeCast_self, shapeCast_self, maximumf_apply, addf_apply, broadcastTo_1b_ab_apply]
  rfl

/-- Body 5: entry (p, q) plus entry q of the row. -/
theorem pay5_apply (x0 : Vec Ideal S10000x128 .f32) (x1 : Vec Ideal S1x128 .f32) (p : Fin 10000) (q : Fin 128) :
    k5_pay1 (F := Ideal) x0 x1 (ix2 p q) = x0 (ix2 p q) + x1 (ix2 (0 : Fin 1) q) := by
  unfold k5_pay1
  rw [shapeCast_self, shapeCast_self, addf_apply, broadcastTo_1b_ab_apply]

end Cert.KernelIdeal.Body

end
-- ==== Proof.Region0.lean ====
/-
  Region 0 (the first product kernel) as one whole-array function.

  The grid has 5 points; point t multiplies rows 10000·t … 10000·t + 9999 of the features (all 64 columns) by the whole
  64 × 128 weight matrix and writes the same rows of the result.  Entry (p, q) of a block is the sum over k of the
  block's (p, k) times the weights' (k, q), which is the entry of the whole product at the block's row; the 5 blocks
  cover the 50000 rows, so the result array ends holding `matProd` of the operands as the region finds them.
-/
import proofs.«124668_j44135083933972_1_alg».proof.Proof.Gen.KernelIdeal.Frame
import proofs.«124668_j44135083933972_1_alg».proof.Proof.Payloads
import Idealize.ShloMosaic.Lib.Pipeline.Value

set_option maxRecDepth 16384

noncomputable section

namespace Cert.KernelIdeal.Region0

open Cert.KernelIdeal Cert.KernelIdeal.Gen Cert.KernelIdeal.Body Cert.LibTileOps
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the features' and the result's block at point `t` is block row `t`, block
    column 0; the weights' block is always the whole matrix. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The law at one entry: the sum over the contracted index of the features' row entries times the weights' column
    entries is the product's entry. -/
theorem point_law (X : FVec Ideal S50000x64 .f32) (Wt : FVec Ideal S64x128 .f32) (i2 : S50000x128.Idx)
    (f0 : Fin 64 → S50000x64.Idx) (f1 : Fin 64 → S64x128.Idx)
    (h0 : ∀ k, f0 k = ix2 (i2 0) k) (h1 : ∀ k, f1 k = ix2 k (i2 1)) :
    ∑ k : Fin 64, X (f0 k) * Wt (f1 k) = matProd X Wt i2 := by
  unfold matProd
  refine Finset.sum_congr rfl fun k _ => ?_
  rw [h0 k, h1 k]
  rfl

/-- What point `t` writes back is block `t` of the product of the features and the weights. -/
theorem flushed_eq (c : Dev nD) (t : Fin cfg0.N) :
    (dat0 V c).flushed 2 t = ((cfg0.win 2).blk t).view.read (Elt Ideal)
      (matProd (V c main_arg0 : FVec Ideal S50000x64 .f32) (V c main_arg2 : FVec Ideal S64x128 .f32)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x128) hz]
  obtain ⟨e00, e01, e10, e11, e20, e21⟩ := idx_facts t
  funext j
  obtain ⟨p, q, rfl⟩ : ∃ (p : Fin 10000) (q : Fin 128), j = ix2 p q := ⟨j 0, j 1, eq_ix2 j⟩
  refine (pay0_apply (iblk0 V c 0 t) (iblk0 V c 1 t) p q).trans ?_
  have h0 : ∀ k : Fin 64, ((cfg0.win 0).blk t).view.emb (ix2 p k) = ix2 ((((cfg0.win 2).blk t).view.emb (ix2 p q)) 0) k := fun k => by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * k.val = k.val; omega
  have h1 : ∀ k : Fin 64, ((cfg0.win 1).blk t).view.emb (ix2 k q) = ix2 k ((((cfg0.win 2).blk t).view.emb (ix2 p q)) 1) := fun k => by
    funext a; apply Fin.ext
    match a with
    | ⟨0, _⟩ => show win0_1.index t (0 : Fin 2) * 64 + 1 * k.val = k.val; omega
    | ⟨1, _⟩ => show win0_1.index t (1 : Fin 2) * 128 + 1 * q.val = win0_2.index t (1 : Fin 2) * 128 + 1 * q.val; omega
  exact point_law (V c main_arg0) (V c main_arg2) (((cfg0.win 2).blk t).view.emb (ix2 p q))
    (fun k => ((cfg0.win 0).blk t).view.emb (ix2 p k)) (fun k => ((cfg0.win 1).blk t).view.emb (ix2 k q)) h0 h1

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v15).slice (win0_2.rect t)).set ↔ _
  rw [View.set_slice_whole, Rect.mem_set_unit]
  exact Iff.rfl

/-- Every row is in some point's block: row `r` in that of point `r / 10000`. -/
theorem cover (i : S50000x128.Idx) :
    ∃ t : Fin cfg0.N, (cfg0.win 2).flush t = true ∧ i ∈ ((cfg0.win 2).blk t).view.set := by
  have hN : grid0.N = 5 := N_0
  have hi0 : (i 0).val < 50000 := (i 0).isLt
  have hi1 : (i 1).val < 128 := (i 1).isLt
  let t : Fin cfg0.N := ⟨(i 0).val / 10000, by show (i 0).val / 10000 < grid0.N; rw [hN]; omega⟩
  obtain ⟨e00, e01, e10, e11, e20, e21⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The result array after the region. -/
theorem final (c : Dev nD) :
    (dat0 V c).arrAt 2 cfg0.N = matProd (V c main_arg0 : FVec Ideal S50000x64 .f32) (V c main_arg2 : FVec Ideal S64x128 .f32) :=
  (dat0 V c).arrAt_eq_of_cover 2 _ (fun t _ => flushed_eq V c t) cover

/-- The same with the two operand arrays named. -/
theorem final_of (c : Dev nD) (X : FVec Ideal S50000x64 .f32) (Y : FVec Ideal S64x128 .f32)
    (hX : V c main_arg0 = X) (hY : V c main_arg2 = Y) : (dat0 V c).arrAt 2 cfg0.N = matProd X Y := by
  subst hX hY
  exact final V c

end Cert.KernelIdeal.Region0

end
-- ==== Proof.Region1.lean ====
/-
  Region 1 (the first scaling kernel) as one whole-array function.

  The grid has 85 points; point t works on rows 10000·t … 10000·t + 9999 of the gathered messages (all 128 columns), on
  the same rows of the one-column array of edge weights, and writes the same rows of the result.  So what point t
  writes back is block t of `scaleRows` of the two operand arrays as the region finds them, the 85 blocks cover the
  850000 rows, and the result array ends holding `scaleRows` of the operands.
-/
import proofs.«124668_j44135083933972_1_alg».proof.Proof.Gen.KernelIdeal.Frame
import proofs.«124668_j44135083933972_1_alg».proof.Proof.Payloads
import Idealize.ShloMosaic.Lib.Pipeline.Value

set_option maxRecDepth 16384

noncomputable section

namespace Cert.KernelIdeal.Region1

open Cert.KernelIdeal Cert.KernelIdeal.Gen Cert.KernelIdeal.Body Cert.LibTileOps
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window's block at point `t` is block row `t`, block column 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The law at one entry: the message entry at an index times the weight at that index's row. -/
theorem point_law (X : FVec Ideal S850000x128 .f32) (N : FVec Ideal S850000x1 .f32)
    (i0 i2 : S850000x128.Idx) (i1 : S850000x1.Idx) (h0 : i0 = i2) (h1 : i1 = ix2 (i2 0) (0 : Fin 1)) :
    X i0 * N i1 = scaleRows X N i2 := by
  subst h0 h1; rfl

/-- What point `t` writes back is block `t` of the rows of the messages scaled by the column of weights. -/
theorem flushed_eq (c : Dev nD) (t : Fin cfg1.N) :
    (dat1 V c).flushed 2 t = ((cfg1.win 2).blk t).view.read (Elt Ideal)
      (scaleRows (V c main_v38 : FVec Ideal S850000x128 .f32) (V c main_v31 : FVec Ideal S850000x1 .f32)) := by
  show (cfg1.win 2).cut (grid1.coords t) ((dat1 V c).after 2 t) = _
  rw [after1_2]
  unfold out1_2
  rw [View.canon_unit_zero hz]
  simp only [View.ld_unit_zero (S := S10000x128) hz, View.ld_unit_zero (S := S10000x1) hz]
  obtain ⟨e00, e01, e10, e11, e20, e21⟩ := idx_facts t
  funext j
  obtain ⟨p, q, rfl⟩ : ∃ (p : Fin 10000) (q : Fin 128), j = ix2 p q := ⟨j 0, j 1, eq_ix2 j⟩
  refine (pay1_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have h1 : ((cfg1.win 1).blk t).view.emb (ix2 p (0 : Fin 1)) = ix2 ((((cfg1.win 2).blk t).view.emb (ix2 p q)) 0) (0 : Fin 1) := by
    funext a; apply Fin.ext
    match a with
    | ⟨0, _⟩ => show win1_1.index t (0 : Fin 2) * 10000 + 1 * p.val = win1_2.index t (0 : Fin 2) * 10000 + 1 * p.val; omega
    | ⟨1, _⟩ => show win1_1.index t (1 : Fin 2) * 1 + 1 * 0 = 0; omega
  exact point_law (V c main_v38) (V c main_v31) (((cfg1.win 0).blk t).view.emb (ix2 p q))
    (((cfg1.win 2).blk t).view.emb (ix2 p q)) (((cfg1.win 1).blk t).view.emb (ix2 p (0 : Fin 1))) h0 h1

/-- An index of the result array is in point `t`'s block iff each coordinate is in the block's range on its axis. -/
theorem mem_blk (t : Fin cfg1.N) (i : S850000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v39).slice (win1_2.rect t)).set ↔ _
  rw [View.set_slice_whole, Rect.mem_set_unit]
  exact Iff.rfl

/-- Every row is in some point's block: row `r` in that of point `r / 10000`. -/
theorem cover (i : S850000x128.Idx) :
    ∃ t : Fin cfg1.N, (cfg1.win 2).flush t = true ∧ i ∈ ((cfg1.win 2).blk t).view.set := by
  have hN : grid1.N = 85 := N_1
  have hi0 : (i 0).val < 850000 := (i 0).isLt
  have hi1 : (i 1).val < 128 := (i 1).isLt
  let t : Fin cfg1.N := ⟨(i 0).val / 10000, by show (i 0).val / 10000 < grid1.N; rw [hN]; omega⟩
  obtain ⟨e00, e01, e10, e11, e20, e21⟩ := idx_facts t
  have ht : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The result array after the region: the messages' rows scaled by the column of weights. -/
theorem final (c : Dev nD) :
    (dat1 V c).arrAt 2 cfg1.N
      = scaleRows (V c main_v38 : FVec Ideal S850000x128 .f32) (V c main_v31 : FVec Ideal S850000x1 .f32) :=
  (dat1 V c).arrAt_eq_of_cover 2 _ (fun t _ => flushed_eq V c t) cover

/-- The same with the two operand arrays named. -/
theorem final_of (c : Dev nD) (X : FVec Ideal S850000x128 .f32) (Y : FVec Ideal S850000x1 .f32)
    (hX : V c main_v38 = X) (hY : V c main_v31 = Y) : (dat1 V c).arrAt 2 cfg1.N = scaleRows X Y := by
  subst hX hY
  exact final V c

end Cert.KernelIdeal.Region1

end
-- ==== Proof.Region2.lean ====
/-
  Region 2 (the first bias kernel) as one whole-array function.

  The grid has 5 points; point t works on rows 10000·t … 10000·t + 9999 of the aggregated messages (all 128 columns) and
  on the whole one-row bias array, and writes the same rows of the result.  So what point t writes back is block t of
  `addRowClamp` of the two operand arrays as the region finds them, the 5 blocks cover the 50000 rows, and the result array
  ends holding `addRowClamp` of the operands.
-/
import proofs.«124668_j44135083933972_1_alg».proof.Proof.Gen.KernelIdeal.Frame
import proofs.«124668_j44135083933972_1_alg».proof.Proof.Payloads
import Idealize.ShloMosaic.Lib.Pipeline.Value

set_option maxRecDepth 16384

noncomputable section

namespace Cert.KernelIdeal.Region2

open Cert.KernelIdeal Cert.KernelIdeal.Gen Cert.KernelIdeal.Body Cert.LibTileOps
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the aggregate's and the result's block at point `t` is block row `t`, block
    column 0; the bias row's block is always the whole row. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The law at one entry: the aggregate's entry at an index plus the bias at that index's column, then the maximum with the zero literal's value. -/
theorem point_law (X : FVec Ideal S50000x128 .f32) (Bv : FVec Ideal S1x128 .f32)
    (i0 i2 : S50000x128.Idx) (i1 : S1x128.Idx) (h0 : i0 = i2) (h1 : i1 = ix2 (0 : Fin 1) (i2 1)) :
    max (X i0 + Bv i1) (Ideal.ofBits .f32 0x00000000#32) = addRowClamp X Bv i2 := by
  subst h0 h1; rfl

/-- What point `t` writes back is block `t` of the aggregate with the bias row added and clamped below at zero. -/
theorem flushed_eq (c : Dev nD) (t : Fin cfg2.N) :
    (dat2 V c).flushed 2 t = ((cfg2.win 2).blk t).view.read (Elt Ideal)
      (addRowClamp (V c main_v42 : FVec Ideal S50000x128 .f32) (V c main_v43 : FVec Ideal S1x128 .f32)) := by
  show (cfg2.win 2).cut (grid2.coords t) ((dat2 V c).after 2 t) = _
  rw [after2_2]
  unfold out2_2
  rw [View.canon_unit_zero hz]
  simp only [View.ld_unit_zero (S := S10000x128) hz, View.ld_unit_zero (S := S1x128) hz]
  obtain ⟨e00, e01, e10, e11, e20, e21⟩ := idx_facts t
  funext j
  obtain ⟨p, q, rfl⟩ : ∃ (p : Fin 10000) (q : Fin 128), j = ix2 p q := ⟨j 0, j 1, eq_ix2 j⟩
  refine (pay2_apply (iblk2 V c 0 t) (iblk2 V c 1 t) p q).trans ?_
  have h0 : ((cfg2.win 0).blk t).view.emb (ix2 p q) = ((cfg2.win 2).blk t).view.emb (ix2 p q) := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * q.val = win2_2.index t (1 : Fin 2) * 128 + 1 * q.val; omega
  have h1 : ((cfg2.win 1).blk t).view.emb (ix2 (0 : Fin 1) q) = ix2 (0 : Fin 1) ((((cfg2.win 2).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 128 + 1 * q.val = win2_2.index t (1 : Fin 2) * 128 + 1 * q.val; omega
  exact point_law (V c main_v42) (V c main_v43) (((cfg2.win 0).blk t).view.emb (ix2 p q))
    (((cfg2.win 2).blk t).view.emb (ix2 p q)) (((cfg2.win 1).blk t).view.emb (ix2 (0 : Fin 1) q)) h0 h1

/-- An index of the result array is in point `t`'s block iff each coordinate is in the block's range on its axis. -/
theorem mem_blk (t : Fin cfg2.N) (i : S50000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v44).slice (win2_2.rect t)).set ↔ _
  rw [View.set_slice_whole, Rect.mem_set_unit]
  exact Iff.rfl

/-- Every row is in some point's block: row `r` in that of point `r / 10000`. -/
theorem cover (i : S50000x128.Idx) :
    ∃ t : Fin cfg2.N, (cfg2.win 2).flush t = true ∧ i ∈ ((cfg2.win 2).blk t).view.set := by
  have hN : grid2.N = 5 := N_2
  have hi0 : (i 0).val < 50000 := (i 0).isLt
  have hi1 : (i 1).val < 128 := (i 1).isLt
  let t : Fin cfg2.N := ⟨(i 0).val / 10000, by show (i 0).val / 10000 < grid2.N; rw [hN]; omega⟩
  obtain ⟨e00, e01, e10, e11, e20, e21⟩ := idx_facts t
  have ht : t.val = (i 0).val / 10000 := rfl
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The result array after the region. -/
theorem final (c : Dev nD) :
    (dat2 V c).arrAt 2 cfg2.N = addRowClamp (V c main_v42 : FVec Ideal S50000x128 .f32) (V c main_v43 : FVec Ideal S1x128 .f32) :=
  (dat2 V c).arrAt_eq_of_cover 2 _ (fun t _ => flushed_eq V c t) cover

/-- The same with the two operand arrays named. -/
theorem final_of (c : Dev nD) (X : FVec Ideal S50000x128 .f32) (Y : FVec Ideal S1x128 .f32)
    (hX : V c main_v42 = X) (hY : V c main_v43 = Y) : (dat2 V c).arrAt 2 cfg2.N = addRowClamp X Y := by
  subst hX hY
  exact final V c

end Cert.KernelIdeal.Region2

end
-- ==== Proof.Region3.lean ====
/-
  Region 3 (the second product kernel) as one whole-array function.

  The grid has 5 points; point t multiplies rows 10000·t … 10000·t + 9999 of the features (all 128 columns) by the whole
  128 × 128 weight matrix and writes the same rows of the result.  Entry (p, q) of a block is the sum over k of the
  block's (p, k) times the weights' (k, q), which is the entry of the whole product at the block's row; the 5 blocks
  cover the 50000 rows, so the result array ends holding `matProd` of the operands as the region finds them.
-/
import proofs.«124668_j44135083933972_1_alg».proof.Proof.Gen.KernelIdeal.Frame
import proofs.«124668_j44135083933972_1_alg».proof.Proof.Payloads
import Idealize.ShloMosaic.Lib.Pipeline.Value

set_option maxRecDepth 16384

noncomputable section

namespace Cert.KernelIdeal.Region3

open Cert.KernelIdeal Cert.KernelIdeal.Gen Cert.KernelIdeal.Body Cert.LibTileOps
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the features' and the result's block at point `t` is block row `t`, block
    column 0; the weights' block is always the whole matrix. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The law at one entry: the sum over the contracted index of the features' row entries times the weights' column
    entries is the product's entry. -/
theorem point_law (X : FVec Ideal S50000x128 .f32) (Wt : FVec Ideal S128x128 .f32) (i2 : S50000x128.Idx)
    (f0 : Fin 128 → S50000x128.Idx) (f1 : Fin 128 → S128x128.Idx)
    (h0 : ∀ k, f0 k = ix2 (i2 0) k) (h1 : ∀ k, f1 k = ix2 k (i2 1)) :
    ∑ k : Fin 128, X (f0 k) * Wt (f1 k) = matProd X Wt i2 := by
  unfold matProd
  refine Finset.sum_congr rfl fun k _ => ?_
  rw [h0 k, h1 k]
  rfl

/-- What point `t` writes back is block `t` of the product of the features and the weights. -/
theorem flushed_eq (c : Dev nD) (t : Fin cfg3.N) :
    (dat3 V c).flushed 2 t = ((cfg3.win 2).blk t).view.read (Elt Ideal)
      (matProd (V c main_v44 : FVec Ideal S50000x128 .f32) (V c main_arg4 : FVec Ideal S128x128 .f32)) := by
  show (cfg3.win 2).cut (grid3.coords t) ((dat3 V c).after 2 t) = _
  rw [after3_2]
  unfold out3_2
  rw [View.canon_unit_zero hz]
  simp only [View.ld_unit_zero (S := S10000x128) hz, View.ld_unit_zero (S := S128x128) hz]
  obtain ⟨e00, e01, e10, e11, e20, e21⟩ := idx_facts t
  funext j
  obtain ⟨p, q, rfl⟩ : ∃ (p : Fin 10000) (q : Fin 128), j = ix2 p q := ⟨j 0, j 1, eq_ix2 j⟩
  refine (pay3_apply (iblk3 V c 0 t) (iblk3 V c 1 t) p q).trans ?_
  have h0 : ∀ k : Fin 128, ((cfg3.win 0).blk t).view.emb (ix2 p k) = ix2 ((((cfg3.win 2).blk t).view.emb (ix2 p q)) 0) k := fun k => by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 128 + 1 * k.val = k.val; omega
  have h1 : ∀ k : Fin 128, ((cfg3.win 1).blk t).view.emb (ix2 k q) = ix2 k ((((cfg3.win 2).blk t).view.emb (ix2 p q)) 1) := fun k => by
    funext a; apply Fin.ext
    match a with
    | ⟨0, _⟩ => show win3_1.index t (0 : Fin 2) * 128 + 1 * k.val = k.val; omega
    | ⟨1, _⟩ => show win3_1.index t (1 : Fin 2) * 128 + 1 * q.val = win3_2.index t (1 : Fin 2) * 128 + 1 * q.val; omega
  exact point_law (V c main_v44) (V c main_arg4) (((cfg3.win 2).blk t).view.emb (ix2 p q))
    (fun k => ((cfg3.win 0).blk t).view.emb (ix2 p k)) (fun k => ((cfg3.win 1).blk t).view.emb (ix2 k q)) h0 h1

/-- An index of the result array is in point `t`'s block iff each coordinate is in the block's range on its axis. -/
theorem mem_blk (t : Fin cfg3.N) (i : S50000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v45).slice (win3_2.rect t)).set ↔ _
  rw [View.set_slice_whole, Rect.mem_set_unit]
  exact Iff.rfl

/-- Every row is in some point's block: row `r` in that of point `r / 10000`. -/
theorem cover (i : S50000x128.Idx) :
    ∃ t : Fin cfg3.N, (cfg3.win 2).flush t = true ∧ i ∈ ((cfg3.win 2).blk t).view.set := by
  have hN : grid3.N = 5 := N_3
  have hi0 : (i 0).val < 50000 := (i 0).isLt
  have hi1 : (i 1).val < 128 := (i 1).isLt
  let t : Fin cfg3.N := ⟨(i 0).val / 10000, by show (i 0).val / 10000 < grid3.N; rw [hN]; omega⟩
  obtain ⟨e00, e01, e10, e11, e20, e21⟩ := idx_facts t
  have ht : t.val = (i 0).val / 10000 := rfl
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The result array after the region. -/
theorem final (c : Dev nD) :
    (dat3 V c).arrAt 2 cfg3.N = matProd (V c main_v44 : FVec Ideal S50000x128 .f32) (V c main_arg4 : FVec Ideal S128x128 .f32) :=
  (dat3 V c).arrAt_eq_of_cover 2 _ (fun t _ => flushed_eq V c t) cover

/-- The same with the two operand arrays named. -/
theorem final_of (c : Dev nD) (X : FVec Ideal S50000x128 .f32) (Y : FVec Ideal S128x128 .f32)
    (hX : V c main_v44 = X) (hY : V c main_arg4 = Y) : (dat3 V c).arrAt 2 cfg3.N = matProd X Y := by
  subst hX hY
  exact final V c

end Cert.KernelIdeal.Region3

end
-- ==== Proof.Region4.lean ====
/-
  Region 4 (the second scaling kernel) as one whole-array function.

  The grid has 85 points; point t works on rows 10000·t … 10000·t + 9999 of the gathered messages (all 128 columns), on
  the same rows of the one-column array of edge weights, and writes the same rows of the result.  So what point t
  writes back is block t of `scaleRows` of the two operand arrays as the region finds them, the 85 blocks cover the
  850000 rows, and the result array ends holding `scaleRows` of the operands.
-/
import proofs.«124668_j44135083933972_1_alg».proof.Proof.Gen.KernelIdeal.Frame
import proofs.«124668_j44135083933972_1_alg».proof.Proof.Payloads
import Idealize.ShloMosaic.Lib.Pipeline.Value

set_option maxRecDepth 16384

noncomputable section

namespace Cert.KernelIdeal.Region4

open Cert.KernelIdeal Cert.KernelIdeal.Gen Cert.KernelIdeal.Body Cert.LibTileOps
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window's block at point `t` is block row `t`, block column 0. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The law at one entry: the message entry at an index times the weight at that index's row. -/
theorem point_law (X : FVec Ideal S850000x128 .f32) (N : FVec Ideal S850000x1 .f32)
    (i0 i2 : S850000x128.Idx) (i1 : S850000x1.Idx) (h0 : i0 = i2) (h1 : i1 = ix2 (i2 0) (0 : Fin 1)) :
    X i0 * N i1 = scaleRows X N i2 := by
  subst h0 h1; rfl

/-- What point `t` writes back is block `t` of the rows of the messages scaled by the column of weights. -/
theorem flushed_eq (c : Dev nD) (t : Fin cfg4.N) :
    (dat4 V c).flushed 2 t = ((cfg4.win 2).blk t).view.read (Elt Ideal)
      (scaleRows (V c main_v68 : FVec Ideal S850000x128 .f32) (V c main_v61 : FVec Ideal S850000x1 .f32)) := by
  show (cfg4.win 2).cut (grid4.coords t) ((dat4 V c).after 2 t) = _
  rw [after4_2]
  unfold out4_2
  rw [View.canon_unit_zero hz]
  simp only [View.ld_unit_zero (S := S10000x128) hz, View.ld_unit_zero (S := S10000x1) hz]
  obtain ⟨e00, e01, e10, e11, e20, e21⟩ := idx_facts t
  funext j
  obtain ⟨p, q, rfl⟩ : ∃ (p : Fin 10000) (q : Fin 128), j = ix2 p q := ⟨j 0, j 1, eq_ix2 j⟩
  refine (pay4_apply (iblk4 V c 0 t) (iblk4 V c 1 t) p q).trans ?_
  have h0 : ((cfg4.win 0).blk t).view.emb (ix2 p q) = ((cfg4.win 2).blk t).view.emb (ix2 p q) := by
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 128 + 1 * q.val = win4_2.index t (1 : Fin 2) * 128 + 1 * q.val; omega
  have h1 : ((cfg4.win 1).blk t).view.emb (ix2 p (0 : Fin 1)) = ix2 ((((cfg4.win 2).blk t).view.emb (ix2 p q)) 0) (0 : Fin 1) := by
    funext a; apply Fin.ext
    match a with
    | ⟨0, _⟩ => show win4_1.index t (0 : Fin 2) * 10000 + 1 * p.val = win4_2.index t (0 : Fin 2) * 10000 + 1 * p.val; omega
    | ⟨1, _⟩ => show win4_1.index t (1 : Fin 2) * 1 + 1 * 0 = 0; omega
  exact point_law (V c main_v68) (V c main_v61) (((cfg4.win 0).blk t).view.emb (ix2 p q))
    (((cfg4.win 2).blk t).view.emb (ix2 p q)) (((cfg4.win 1).blk t).view.emb (ix2 p (0 : Fin 1))) h0 h1

/-- An index of the result array is in point `t`'s block iff each coordinate is in the block's range on its axis. -/
theorem mem_blk (t : Fin cfg4.N) (i : S850000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v69).slice (win4_2.rect t)).set ↔ _
  rw [View.set_slice_whole, Rect.mem_set_unit]
  exact Iff.rfl

/-- Every row is in some point's block: row `r` in that of point `r / 10000`. -/
theorem cover (i : S850000x128.Idx) :
    ∃ t : Fin cfg4.N, (cfg4.win 2).flush t = true ∧ i ∈ ((cfg4.win 2).blk t).view.set := by
  have hN : grid4.N = 85 := N_4
  have hi0 : (i 0).val < 850000 := (i 0).isLt
  have hi1 : (i 1).val < 128 := (i 1).isLt
  let t : Fin cfg4.N := ⟨(i 0).val / 10000, by show (i 0).val / 10000 < grid4.N; rw [hN]; omega⟩
  obtain ⟨e00, e01, e10, e11, e20, e21⟩ := idx_facts t
  have ht : t.val = (i 0).val / 10000 := rfl
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- The result array after the region: the messages' rows scaled by the column of weights. -/
theorem final (c : Dev nD) :
    (dat4 V c).arrAt 2 cfg4.N
      = scaleRows (V c main_v68 : FVec Ideal S850000x128 .f32) (V c main_v61 : FVec Ideal S850000x1 .f32) :=
  (dat4 V c).arrAt_eq_of_cover 2 _ (fun t _ => flushed_eq V c t) cover

/-- The same with the two operand arrays named. -/
theorem final_of (c : Dev nD) (X : FVec Ideal S850000x128 .f32) (Y : FVec Ideal S850000x1 .f32)
    (hX : V c main_v68 = X) (hY : V c main_v61 = Y) : (dat4 V c).arrAt 2 cfg4.N = scaleRows X Y := by
  subst hX hY
  exact final V c

end Cert.KernelIdeal.Region4

end
-- ==== Proof.Region5.lean ====
/-
  Region 5 (the second bias kernel) as one whole-array function.

  The grid has 5 points; point t works on rows 10000·t … 10000·t + 9999 of the aggregated messages (all 128 columns) and
  on the whole one-row bias array, and writes the same rows of the result.  So what point t writes back is block t of
  `addRow` of the two operand arrays as the region finds them, the 5 blocks cover the 50000 rows, and the result array
  ends holding `addRow` of the operands.
-/
import proofs.«124668_j44135083933972_1_alg».proof.Proof.Gen.KernelIdeal.Frame
import proofs.«124668_j44135083933972_1_alg».proof.Proof.Payloads
import Idealize.ShloMosaic.Lib.Pipeline.Value

set_option maxRecDepth 16384

noncomputable section

namespace Cert.KernelIdeal.Region5

open Cert.KernelIdeal Cert.KernelIdeal.Gen Cert.KernelIdeal.Body Cert.LibTileOps
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the aggregate's and the result's block at point `t` is block row `t`, block
    column 0; the bias row's block is always the whole row. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The law at one entry: the aggregate's entry at an index plus the bias at that index's column. -/
theorem point_law (X : FVec Ideal S50000x128 .f32) (Bv : FVec Ideal S1x128 .f32)
    (i0 i2 : S50000x128.Idx) (i1 : S1x128.Idx) (h0 : i0 = i2) (h1 : i1 = ix2 (0 : Fin 1) (i2 1)) :
    X i0 + Bv i1 = addRow X Bv i2 := by
  subst h0 h1; rfl

/-- What point `t` writes back is block `t` of the aggregate with the bias row added. -/
theorem flushed_eq (c : Dev nD) (t : Fin cfg5.N) :
    (dat5 V c).flushed 2 t = ((cfg5.win 2).blk t).view.read (Elt Ideal)
      (addRow (V c main_v72 : FVec Ideal S50000x128 .f32) (V c main_v73 : FVec Ideal S1x128 .f32)) := by
  show (cfg5.win 2).cut (grid5.coords t) ((dat5 V c).after 2 t) = _
  rw [after5_2]
  unfold out5_2
  rw [View.canon_unit_zero hz]
  simp only [View.ld_unit_zero (S := S10000x128) hz, View.ld_unit_zero (S := S1x128) hz]
  obtain ⟨e00, e01, e10, e11, e20, e21⟩ := idx_facts t
  funext j
  obtain ⟨p, q, rfl⟩ : ∃ (p : Fin 10000) (q : Fin 128), j = ix2 p q := ⟨j 0, j 1, eq_ix2 j⟩
  refine (pay5_apply (iblk5 V c 0 t) (iblk5 V c 1 t) p q).trans ?_
  have h0 : ((cfg5.win 0).blk t).view.emb (ix2 p q) = ((cfg5.win 2).blk t).view.emb (ix2 p q) := by
    funext a; apply Fin.ext
    match a with
    | ⟨0, _⟩ => show win5_0.index t (0 : Fin 2) * 10000 + 1 * p.val = win5_2.index t (0 : Fin 2) * 10000 + 1 * p.val; omega
    | ⟨1, _⟩ => show win5_0.index t (1 : Fin 2) * 128 + 1 * q.val = win5_2.index t (1 : Fin 2) * 128 + 1 * q.val; omega
  have h1 : ((cfg5.win 1).blk t).view.emb (ix2 (0 : Fin 1) q) = ix2 (0 : Fin 1) ((((cfg5.win 2).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 128 + 1 * q.val = win5_2.index t (1 : Fin 2) * 128 + 1 * q.val; omega
  exact point_law (V c main_v72) (V c main_v73) (((cfg5.win 0).blk t).view.emb (ix2 p q))
    (((cfg5.win 2).blk t).view.emb (ix2 p q)) (((cfg5.win 1).blk t).view.emb (ix2 (0 : Fin 1) q)) h0 h1

/-- An index of the result array is in point `t`'s block iff each coordinate is in the block's range on its axis. -/
theorem mem_blk (t : Fin cfg5.N) (i : S50000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v74).slice (win5_2.rect t)).set ↔ _
  rw [View.set_slice_whole, Rect.mem_set_unit]
  exact Iff.rfl

/-- Every row is in some point's block: row `r` in that of point `r / 10000`. -/
theorem cover (i : S50000x128.Idx) :
    ∃ t : Fin cfg5.N, (cfg5.win 2).flush t = true ∧ i ∈ ((cfg5.win 2).blk t).view.set := by
  have hN : grid5.N = 5 := N_5
  have hi0 : (i 0).val < 50000 := (i 0).isLt
  have hi1 : (i 1).val < 128 := (i 1).isLt
  let t : Fin cfg5.N := ⟨(i 0).val / 10000, by show (i 0).val / 10000 < grid5.N; rw [hN]; omega⟩
  obtain ⟨e00, e01, e10, e11, e20, e21⟩ := idx_facts t
  have ht : t.val = (i 0).val / 10000 := rfl
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 128 ≤ (i 1).val ∧ (i 1).val < win5_2.index t (1 : Fin 2) * 128 + 128; omega

/-- The result array after the region. -/
theorem final (c : Dev nD) :
    (dat5 V c).arrAt 2 cfg5.N = addRow (V c main_v72 : FVec Ideal S50000x128 .f32) (V c main_v73 : FVec Ideal S1x128 .f32) :=
  (dat5 V c).arrAt_eq_of_cover 2 _ (fun t _ => flushed_eq V c t) cover

/-- The same with the two operand arrays named. -/
theorem final_of (c : Dev nD) (X : FVec Ideal S50000x128 .f32) (Y : FVec Ideal S1x128 .f32)
    (hX : V c main_v72 = X) (hY : V c main_v73 = Y) : (dat5 V c).arrAt 2 cfg5.N = addRow X Y := by
  subst hX hY
  exact final V c

end Cert.KernelIdeal.Region5

end
-- ==== Proof.StretchA.lean ====
/-
  The host operations before the first region, over any contents of the buffers they start from.

  The first eighteen build the two edge-end vectors with the self-loops appended, count the degrees, and compare and
  invert them; the next three are the selection that keeps the inverse square root where the degree is positive and a
  zero elsewhere.  Each lemma reads one buffer after a stretch as the specification's function of the buffers before it.
-/
import proofs.«124668_j44135083933972_1_alg».proof.Proof.Gen.KernelIdeal.Launch
import proofs.«124668_j44135083933972_1_alg».proof.Proof.Spec
import Idealize.ShloMosaic.PureOps.Ideal.Laws

set_option maxRecDepth 16384

noncomputable section

namespace Cert.KernelIdeal.StretchA

open Cert.KernelIdeal Cert.KernelIdeal.Gen
open Idealize.ShloMosaic Idealize.ShloMosaic.TcCoe Idealize.SL.Sem Idealize.ShloMosaic.StableHlo
open Cert.ReferenceIdeal.Spec (srcOf dstOf wrapOf colOf degOf dinvOf normOf gatherRows msgOf aggOf biasOf convOf hiddenOf outOf)

variable (Wv : Valuation τ sig (Elt Ideal))

/-- The sources with the self-loops appended. -/
theorem a_v3 : StableHlo.after (hostOps0 (F := Ideal)) Wv (Proc.devRef .tc main_v3) = srcOf (Wv (Proc.devRef .tc main_arg1)) := by
  after_results_simp <;> rfl
/-- The destinations with the self-loops appended. -/
theorem a_v6 : StableHlo.after (hostOps0 (F := Ideal)) Wv (Proc.devRef .tc main_v6) = dstOf (Wv (Proc.devRef .tc main_arg1)) := by
  after_results_simp <;> rfl
/-- Where the degree is positive. -/
theorem a_v12 : StableHlo.after (hostOps0 (F := Ideal)) Wv (Proc.devRef .tc main_v12) = cmpf (F := Ideal) .ogt (degOf (dstOf (Wv (Proc.devRef .tc main_arg1)))) (broadcastInDim Cert.ReferenceIdeal.S50000 ![] Cert.ReferenceIdeal.Gen.bcast_S_S50000 (constant Cert.ReferenceIdeal.S_ .f32 0x00000000#32)) := by
  after_results_simp <;> rfl
/-- The inverse square root of the degree. -/
theorem a_v13 : StableHlo.after (hostOps0 (F := Ideal)) Wv (Proc.devRef .tc main_v13) = Host.rsqrt (degOf (dstOf (Wv (Proc.devRef .tc main_arg1)))) := by
  after_results_simp <;> rfl
/-- The zero the selection falls back to. -/
theorem a_cst_2 : StableHlo.after (hostOps0 (F := Ideal)) Wv (Proc.devRef .tc main_cst_2) = constant (F := Ideal) Cert.ReferenceIdeal.S_ .f32 0x00000000#32 := by
  after_results_simp <;> rfl
/-- The stretch does not write this buffer. -/
theorem a_arg0 : StableHlo.after (hostOps0 (F := Ideal)) Wv (Proc.devRef .tc main_arg0) = Wv (Proc.devRef .tc main_arg0) := by
  after_results_simp <;> rfl
/-- The stretch does not write this buffer. -/
theorem a_arg2 : StableHlo.after (hostOps0 (F := Ideal)) Wv (Proc.devRef .tc main_arg2) = Wv (Proc.devRef .tc main_arg2) := by
  after_results_simp <;> rfl
/-- The stretch does not write this buffer. -/
theorem a_arg3 : StableHlo.after (hostOps0 (F := Ideal)) Wv (Proc.devRef .tc main_arg3) = Wv (Proc.devRef .tc main_arg3) := by
  after_results_simp <;> rfl
/-- The stretch does not write this buffer. -/
theorem a_arg4 : StableHlo.after (hostOps0 (F := Ideal)) Wv (Proc.devRef .tc main_arg4) = Wv (Proc.devRef .tc main_arg4) := by
  after_results_simp <;> rfl
/-- The stretch does not write this buffer. -/
theorem a_arg5 : StableHlo.after (hostOps0 (F := Ideal)) Wv (Proc.devRef .tc main_arg5) = Wv (Proc.devRef .tc main_arg5) := by
  after_results_simp <;> rfl
/-- The selection: the inverse square root where the degree is positive, the broadcast zero elsewhere. -/
theorem w_v14 : StableHlo.after (hostOps0_1 (F := Ideal)) Wv (Proc.devRef .tc main_v14)
    = select (Wv (Proc.devRef .tc main_v12)) (Wv (Proc.devRef .tc main_v13)) (broadcastInDim Cert.ReferenceIdeal.S50000 ![] Cert.ReferenceIdeal.Gen.bcast_S_S50000 (id (Wv (Proc.devRef .tc main_cst_2)))) := by
  after_results
  rfl
/-- The selection does not write this buffer. -/
theorem w_v3 : StableHlo.after (hostOps0_1 (F := Ideal)) Wv (Proc.devRef .tc main_v3) = Wv (Proc.devRef .tc main_v3) := by
  after_results
/-- The selection does not write this buffer. -/
theorem w_v6 : StableHlo.after (hostOps0_1 (F := Ideal)) Wv (Proc.devRef .tc main_v6) = Wv (Proc.devRef .tc main_v6) := by
  after_results
/-- The selection does not write this buffer. -/
theorem w_arg0 : StableHlo.after (hostOps0_1 (F := Ideal)) Wv (Proc.devRef .tc main_arg0) = Wv (Proc.devRef .tc main_arg0) := by
  after_results
/-- The selection does not write this buffer. -/
theorem w_arg2 : StableHlo.after (hostOps0_1 (F := Ideal)) Wv (Proc.devRef .tc main_arg2) = Wv (Proc.devRef .tc main_arg2) := by
  after_results
/-- The selection does not write this buffer. -/
theorem w_arg3 : StableHlo.after (hostOps0_1 (F := Ideal)) Wv (Proc.devRef .tc main_arg3) = Wv (Proc.devRef .tc main_arg3) := by
  after_results
/-- The selection does not write this buffer. -/
theorem w_arg4 : StableHlo.after (hostOps0_1 (F := Ideal)) Wv (Proc.devRef .tc main_arg4) = Wv (Proc.devRef .tc main_arg4) := by
  after_results
/-- The selection does not write this buffer. -/
theorem w_arg5 : StableHlo.after (hostOps0_1 (F := Ideal)) Wv (Proc.devRef .tc main_arg5) = Wv (Proc.devRef .tc main_arg5) := by
  after_results

end Cert.KernelIdeal.StretchA

end
-- ==== Proof.StretchB.lean ====
/-
  The host operations between the first product region and the first scaling region, over any contents of the
  buffers they start from: the edge weights (the product of the inverse square roots of the degrees at an edge's two
  ends) cast to a one-column array, and the product's rows gathered at the edges' sources.
-/
import proofs.«124668_j44135083933972_1_alg».proof.Proof.Gen.KernelIdeal.Launch
import proofs.«124668_j44135083933972_1_alg».proof.Proof.Spec
import Idealize.ShloMosaic.PureOps.Ideal.Laws

set_option maxRecDepth 16384

noncomputable section

namespace Cert.KernelIdeal.StretchB

open Cert.KernelIdeal Cert.KernelIdeal.Gen
open Idealize.ShloMosaic Idealize.ShloMosaic.TcCoe Idealize.SL.Sem Idealize.ShloMosaic.StableHlo
open Cert.ReferenceIdeal.Spec (srcOf dstOf wrapOf colOf degOf dinvOf normOf gatherRows msgOf aggOf biasOf convOf hiddenOf outOf)

variable (Wv : Valuation τ sig (Elt Ideal))

set_option maxHeartbeats 2000000 in
/-- The product's row at every edge's source. -/
theorem g_v38 : StableHlo.after (hostOps1 (F := Ideal)) Wv (Proc.devRef .tc main_v38) = gatherRows (Wv (Proc.devRef .tc main_v15)) (Wv (Proc.devRef .tc main_v3)) := by
  after_results_simp <;> rfl
set_option maxHeartbeats 2000000 in
/-- The edge weights as a one-column array. -/
theorem g_v31 : StableHlo.after (hostOps1 (F := Ideal)) Wv (Proc.devRef .tc main_v31) = shapeCast S850000x1 (normOf (Wv (Proc.devRef .tc main_v14)) (Wv (Proc.devRef .tc main_v3)) (Wv (Proc.devRef .tc main_v6))) shapeCasts_S850000_S850000x1 := by
  after_results_simp <;> rfl
set_option maxHeartbeats 2000000 in
/-- The stretch does not write this buffer. -/
theorem g_v3 : StableHlo.after (hostOps1 (F := Ideal)) Wv (Proc.devRef .tc main_v3) = Wv (Proc.devRef .tc main_v3) := by
  after_results_simp <;> rfl
set_option maxHeartbeats 2000000 in
/-- The stretch does not write this buffer. -/
theorem g_v6 : StableHlo.after (hostOps1 (F := Ideal)) Wv (Proc.devRef .tc main_v6) = Wv (Proc.devRef .tc main_v6) := by
  after_results_simp <;> rfl
set_option maxHeartbeats 2000000 in
/-- The stretch does not write this buffer. -/
theorem g_v14 : StableHlo.after (hostOps1 (F := Ideal)) Wv (Proc.devRef .tc main_v14) = Wv (Proc.devRef .tc main_v14) := by
  after_results_simp <;> rfl
set_option maxHeartbeats 2000000 in
/-- The stretch does not write this buffer. -/
theorem g_arg3 : StableHlo.after (hostOps1 (F := Ideal)) Wv (Proc.devRef .tc main_arg3) = Wv (Proc.devRef .tc main_arg3) := by
  after_results_simp <;> rfl
set_option maxHeartbeats 2000000 in
/-- The stretch does not write this buffer. -/
theorem g_arg4 : StableHlo.after (hostOps1 (F := Ideal)) Wv (Proc.devRef .tc main_arg4) = Wv (Proc.devRef .tc main_arg4) := by
  after_results_simp <;> rfl
set_option maxHeartbeats 2000000 in
/-- The stretch does not write this buffer. -/
theorem g_arg5 : StableHlo.after (hostOps1 (F := Ideal)) Wv (Proc.devRef .tc main_arg5) = Wv (Proc.devRef .tc main_arg5) := by
  after_results_simp <;> rfl

end Cert.KernelIdeal.StretchB

end
-- ==== Proof.StretchC.lean ====
/-
  The host operations between a scaling region and the bias region that follows it, over any contents of the buffers
  they start from: the scaled rows added up at the edges' destinations, and the bias vector cast to a one-row array.
-/
import proofs.«124668_j44135083933972_1_alg».proof.Proof.Gen.KernelIdeal.Launch
import proofs.«124668_j44135083933972_1_alg».proof.Proof.Spec
import Idealize.ShloMosaic.PureOps.Ideal.Laws

set_option maxRecDepth 16384

noncomputable section

namespace Cert.KernelIdeal.StretchC

open Cert.KernelIdeal Cert.KernelIdeal.Gen
open Idealize.ShloMosaic Idealize.ShloMosaic.TcCoe Idealize.SL.Sem Idealize.ShloMosaic.StableHlo
open Cert.ReferenceIdeal.Spec (srcOf dstOf wrapOf colOf degOf dinvOf normOf gatherRows msgOf aggOf biasOf convOf hiddenOf outOf)

variable (Wv : Valuation τ sig (Elt Ideal))

/-- The first layer's scaled rows added up at the destinations. -/
theorem s_v42 : StableHlo.after (hostOps2 (F := Ideal)) Wv (Proc.devRef .tc main_v42) = aggOf (Wv (Proc.devRef .tc main_v39)) (Wv (Proc.devRef .tc main_v6)) := by
  after_results_simp <;> rfl
/-- The first bias as a one-row array. -/
theorem s_v43 : StableHlo.after (hostOps2 (F := Ideal)) Wv (Proc.devRef .tc main_v43) = shapeCast S1x128 (Wv (Proc.devRef .tc main_arg3)) shapeCasts_S128_S1x128 := by
  after_results_simp <;> rfl
/-- The stretch does not write this buffer. -/
theorem s_v3 : StableHlo.after (hostOps2 (F := Ideal)) Wv (Proc.devRef .tc main_v3) = Wv (Proc.devRef .tc main_v3) := by
  after_results_simp <;> rfl
/-- The stretch does not write this buffer. -/
theorem s_v6 : StableHlo.after (hostOps2 (F := Ideal)) Wv (Proc.devRef .tc main_v6) = Wv (Proc.devRef .tc main_v6) := by
  after_results_simp <;> rfl
/-- The stretch does not write this buffer. -/
theorem s_v14 : StableHlo.after (hostOps2 (F := Ideal)) Wv (Proc.devRef .tc main_v14) = Wv (Proc.devRef .tc main_v14) := by
  after_results_simp <;> rfl
/-- The stretch does not write this buffer. -/
theorem s_arg4 : StableHlo.after (hostOps2 (F := Ideal)) Wv (Proc.devRef .tc main_arg4) = Wv (Proc.devRef .tc main_arg4) := by
  after_results_simp <;> rfl
/-- The stretch does not write this buffer. -/
theorem s_arg5 : StableHlo.after (hostOps2 (F := Ideal)) Wv (Proc.devRef .tc main_arg5) = Wv (Proc.devRef .tc main_arg5) := by
  after_results_simp <;> rfl
/-- The second layer's scaled rows added up at the destinations. -/
theorem s_v72 : StableHlo.after (hostOps5 (F := Ideal)) Wv (Proc.devRef .tc main_v72) = aggOf (Wv (Proc.devRef .tc main_v69)) (Wv (Proc.devRef .tc main_v6)) := by
  after_results_simp <;> rfl
/-- The second bias as a one-row array. -/
theorem s_v73 : StableHlo.after (hostOps5 (F := Ideal)) Wv (Proc.devRef .tc main_v73) = shapeCast S1x128 (Wv (Proc.devRef .tc main_arg5)) shapeCasts_S128_S1x128 := by
  after_results_simp <;> rfl

end Cert.KernelIdeal.StretchC

end
-- ==== Proof.StretchD.lean ====
/-
  The host operations between the second product region and the second scaling region, over any contents of the
  buffers they start from: the edge weights (the product of the inverse square roots of the degrees at an edge's two
  ends) cast to a one-column array, and the product's rows gathered at the edges' sources.
-/
import proofs.«124668_j44135083933972_1_alg».proof.Proof.Gen.KernelIdeal.Launch
import proofs.«124668_j44135083933972_1_alg».proof.Proof.Spec
import Idealize.ShloMosaic.PureOps.Ideal.Laws

set_option maxRecDepth 16384

noncomputable section

namespace Cert.KernelIdeal.StretchD

open Cert.KernelIdeal Cert.KernelIdeal.Gen
open Idealize.ShloMosaic Idealize.ShloMosaic.TcCoe Idealize.SL.Sem Idealize.ShloMosaic.StableHlo
open Cert.ReferenceIdeal.Spec (srcOf dstOf wrapOf colOf degOf dinvOf normOf gatherRows msgOf aggOf biasOf convOf hiddenOf outOf)

variable (Wv : Valuation τ sig (Elt Ideal))

set_option maxHeartbeats 2000000 in
/-- The product's row at every edge's source. -/
theorem g_v68 : StableHlo.after (hostOps4 (F := Ideal)) Wv (Proc.devRef .tc main_v68) = gatherRows (Wv (Proc.devRef .tc main_v45)) (Wv (Proc.devRef .tc main_v3)) := by
  after_results_simp <;> rfl
set_option maxHeartbeats 2000000 in
/-- The edge weights as a one-column array. -/
theorem g_v61 : StableHlo.after (hostOps4 (F := Ideal)) Wv (Proc.devRef .tc main_v61) = shapeCast S850000x1 (normOf (Wv (Proc.devRef .tc main_v14)) (Wv (Proc.devRef .tc main_v3)) (Wv (Proc.devRef .tc main_v6))) shapeCasts_S850000_S850000x1 := by
  after_results_simp <;> rfl
set_option maxHeartbeats 2000000 in
/-- The stretch does not write this buffer. -/
theorem g_v6 : StableHlo.after (hostOps4 (F := Ideal)) Wv (Proc.devRef .tc main_v6) = Wv (Proc.devRef .tc main_v6) := by
  after_results_simp <;> rfl
set_option maxHeartbeats 2000000 in
/-- The stretch does not write this buffer. -/
theorem g_arg5 : StableHlo.after (hostOps4 (F := Ideal)) Wv (Proc.devRef .tc main_arg5) = Wv (Proc.devRef .tc main_arg5) := by
  after_results_simp <;> rfl

end Cert.KernelIdeal.StretchD

end
-- ==== Proof.Chain.lean ====
/-
  The idealized kernel's buffers, boundary by boundary, as the specification's functions of the arguments.

  The run passes twelve boundaries `W1` … `W12`: a stretch of host operations takes one boundary's contents to the
  next by the operations' composed functions; a region leaves its operand arrays as it found them, its result array at
  the region's whole-array function of the operands, and every other buffer untouched.  Read in order this gives, at
  each boundary, the buffers the rest of the run still needs: the two edge-end vectors, the inverse square roots of
  the degrees, the arguments not yet consumed, and the layer's current intermediate.  A tiled product is the host's
  dot_general, a block-wise scaling is the host's product with the weights broadcast along the rows, a block-wise bias
  is the host's sum with the bias broadcast down the columns: so the last boundary holds, at the result buffer, the
  two-layer convolution of the arguments in the reference's own spelling.
-/
import proofs.«124668_j44135083933972_1_alg».proof.Proof.Gen.KernelIdeal.Frame
import proofs.«124668_j44135083933972_1_alg».proof.Proof.Spec
import proofs.«124668_j44135083933972_1_alg».proof.Proof.LibTileOps
import proofs.«124668_j44135083933972_1_alg».proof.Proof.Region0
import proofs.«124668_j44135083933972_1_alg».proof.Proof.Region1
import proofs.«124668_j44135083933972_1_alg».proof.Proof.Region2
import proofs.«124668_j44135083933972_1_alg».proof.Proof.Region3
import proofs.«124668_j44135083933972_1_alg».proof.Proof.Region4
import proofs.«124668_j44135083933972_1_alg».proof.Proof.Region5
import proofs.«124668_j44135083933972_1_alg».proof.Proof.StretchA
import proofs.«124668_j44135083933972_1_alg».proof.Proof.StretchB
import proofs.«124668_j44135083933972_1_alg».proof.Proof.StretchC
import proofs.«124668_j44135083933972_1_alg».proof.Proof.StretchD

set_option maxRecDepth 16384

noncomputable section

namespace Cert.KernelIdeal.Chain

open Cert.KernelIdeal Cert.KernelIdeal.Gen Cert.LibTileOps
open Idealize.ShloMosaic Idealize.ShloMosaic.TcCoe Idealize.SL.Sem
open Cert.ReferenceIdeal.Spec (srcOf dstOf wrapOf colOf degOf dinvOf normOf gatherRows msgOf aggOf biasOf convOf hiddenOf outOf)

variable (m : (ℓ : Loc nD τ sig) → Buf (Elt Ideal) ℓ) (ρ : Dev nD → PrngReg) (c : Dev nD)

/-! ## The arguments and the specification's intermediates, named -/

abbrev aZ : (⟨Cert.ReferenceIdeal.S50000x64, .f32⟩ : BufTy).Contents (Elt Ideal) := m ((c.tc : Thread nD τ).loc main_arg0)
abbrev aE : (⟨Cert.ReferenceIdeal.S2x800000, .i32⟩ : BufTy).Contents (Elt Ideal) := m ((c.tc : Thread nD τ).loc main_arg1)
abbrev aW1 : (⟨Cert.ReferenceIdeal.S64x128, .f32⟩ : BufTy).Contents (Elt Ideal) := m ((c.tc : Thread nD τ).loc main_arg2)
abbrev aB1 : (⟨Cert.ReferenceIdeal.S128, .f32⟩ : BufTy).Contents (Elt Ideal) := m ((c.tc : Thread nD τ).loc main_arg3)
abbrev aW2 : (⟨Cert.ReferenceIdeal.S128x128, .f32⟩ : BufTy).Contents (Elt Ideal) := m ((c.tc : Thread nD τ).loc main_arg4)
abbrev aB2 : (⟨Cert.ReferenceIdeal.S128, .f32⟩ : BufTy).Contents (Elt Ideal) := m ((c.tc : Thread nD τ).loc main_arg5)

/-- The sources, the destinations, the inverse square roots of the degrees and the edge weights. -/
abbrev src : (⟨Cert.ReferenceIdeal.S850000, .i32⟩ : BufTy).Contents (Elt Ideal) := srcOf (aE m c)
abbrev dst : (⟨Cert.ReferenceIdeal.S850000, .i32⟩ : BufTy).Contents (Elt Ideal) := dstOf (aE m c)
abbrev dinv : (⟨Cert.ReferenceIdeal.S50000, .f32⟩ : BufTy).Contents (Elt Ideal) := dinvOf (dst m c)
abbrev norm : (⟨Cert.ReferenceIdeal.S850000, .f32⟩ : BufTy).Contents (Elt Ideal) := normOf (dinv m c) (src m c) (dst m c)
/-- The first layer's transformed features, its result, and the second layer's transformed features. -/
abbrev xw1 : (⟨Cert.ReferenceIdeal.S50000x128, .f32⟩ : BufTy).Contents (Elt Ideal) :=
  Host.dotGeneral (F := Ideal) (φ₁ := .f32) (φ₂ := .f32) Cert.ReferenceIdeal.dot_S50000x64_S64x128_S50000x128_1_0_0_1_n_n none (aZ m c) (aW1 m c)
abbrev hid : (⟨Cert.ReferenceIdeal.S50000x128, .f32⟩ : BufTy).Contents (Elt Ideal) := hiddenOf (aZ m c) (aE m c) (aW1 m c) (aB1 m c)
abbrev xw2 : (⟨Cert.ReferenceIdeal.S50000x128, .f32⟩ : BufTy).Contents (Elt Ideal) :=
  Host.dotGeneral (F := Ideal) (φ₁ := .f32) (φ₂ := .f32) Cert.ReferenceIdeal.dot_S50000x128_S128x128_S50000x128_1_0_0_1_n_n none (hid m c) (aW2 m c)

/-- Both of the reference's contractions are plain matrix products. -/
theorem plainR1 : Cert.LibPlainDot.Plain Cert.ReferenceIdeal.dot_S50000x64_S64x128_S50000x128_1_0_0_1_n_n := ⟨rfl, rfl, rfl, rfl, rfl, rfl⟩
theorem plainR2 : Cert.LibPlainDot.Plain Cert.ReferenceIdeal.dot_S50000x128_S128x128_S50000x128_1_0_0_1_n_n := ⟨rfl, rfl, rfl, rfl, rfl, rfl⟩

/-! ## Before the first region -/

theorem W0_arg0 : W0 m ρ c (Proc.devRef .tc main_arg0) = aZ m c :=
  rfl
theorem W0_arg1 : W0 m ρ c (Proc.devRef .tc main_arg1) = aE m c :=
  rfl
theorem W0_arg2 : W0 m ρ c (Proc.devRef .tc main_arg2) = aW1 m c :=
  rfl
theorem W0_arg3 : W0 m ρ c (Proc.devRef .tc main_arg3) = aB1 m c :=
  rfl
theorem W0_arg4 : W0 m ρ c (Proc.devRef .tc main_arg4) = aW2 m c :=
  rfl
theorem W0_arg5 : W0 m ρ c (Proc.devRef .tc main_arg5) = aB2 m c :=
  rfl
theorem W1_v3 : W1 m ρ c (Proc.devRef .tc main_v3) = src m c :=
  (StretchA.a_v3 (W0 m ρ c)).trans (by rw [W0_arg1 m ρ c])
theorem W1_v6 : W1 m ρ c (Proc.devRef .tc main_v6) = dst m c :=
  (StretchA.a_v6 (W0 m ρ c)).trans (by rw [W0_arg1 m ρ c])
theorem W1_v12 : W1 m ρ c (Proc.devRef .tc main_v12) = cmpf (F := Ideal) .ogt (degOf (dst m c)) (broadcastInDim Cert.ReferenceIdeal.S50000 ![] Cert.ReferenceIdeal.Gen.bcast_S_S50000 (constant Cert.ReferenceIdeal.S_ .f32 0x00000000#32)) :=
  (StretchA.a_v12 (W0 m ρ c)).trans (by rw [W0_arg1 m ρ c])
theorem W1_v13 : W1 m ρ c (Proc.devRef .tc main_v13) = Host.rsqrt (degOf (dst m c)) :=
  (StretchA.a_v13 (W0 m ρ c)).trans (by rw [W0_arg1 m ρ c])
theorem W1_cst_2 : W1 m ρ c (Proc.devRef .tc main_cst_2) = constant (F := Ideal) Cert.ReferenceIdeal.S_ .f32 0x00000000#32 :=
  StretchA.a_cst_2 (W0 m ρ c)
theorem W1_arg0 : W1 m ρ c (Proc.devRef .tc main_arg0) = aZ m c :=
  (StretchA.a_arg0 (W0 m ρ c)).trans (W0_arg0 m ρ c)
theorem W1_arg2 : W1 m ρ c (Proc.devRef .tc main_arg2) = aW1 m c :=
  (StretchA.a_arg2 (W0 m ρ c)).trans (W0_arg2 m ρ c)
theorem W1_arg3 : W1 m ρ c (Proc.devRef .tc main_arg3) = aB1 m c :=
  (StretchA.a_arg3 (W0 m ρ c)).trans (W0_arg3 m ρ c)
theorem W1_arg4 : W1 m ρ c (Proc.devRef .tc main_arg4) = aW2 m c :=
  (StretchA.a_arg4 (W0 m ρ c)).trans (W0_arg4 m ρ c)
theorem W1_arg5 : W1 m ρ c (Proc.devRef .tc main_arg5) = aB2 m c :=
  (StretchA.a_arg5 (W0 m ρ c)).trans (W0_arg5 m ρ c)
theorem W2_v3 : W2 m ρ c (Proc.devRef .tc main_v3) = src m c :=
  (StretchA.w_v3 (W1 m ρ c)).trans (W1_v3 m ρ c)
theorem W2_v6 : W2 m ρ c (Proc.devRef .tc main_v6) = dst m c :=
  (StretchA.w_v6 (W1 m ρ c)).trans (W1_v6 m ρ c)
theorem W2_arg0 : W2 m ρ c (Proc.devRef .tc main_arg0) = aZ m c :=
  (StretchA.w_arg0 (W1 m ρ c)).trans (W1_arg0 m ρ c)
theorem W2_arg2 : W2 m ρ c (Proc.devRef .tc main_arg2) = aW1 m c :=
  (StretchA.w_arg2 (W1 m ρ c)).trans (W1_arg2 m ρ c)
theorem W2_arg3 : W2 m ρ c (Proc.devRef .tc main_arg3) = aB1 m c :=
  (StretchA.w_arg3 (W1 m ρ c)).trans (W1_arg3 m ρ c)
theorem W2_arg4 : W2 m ρ c (Proc.devRef .tc main_arg4) = aW2 m c :=
  (StretchA.w_arg4 (W1 m ρ c)).trans (W1_arg4 m ρ c)
theorem W2_arg5 : W2 m ρ c (Proc.devRef .tc main_arg5) = aB2 m c :=
  (StretchA.w_arg5 (W1 m ρ c)).trans (W1_arg5 m ρ c)
theorem W2_v14 : W2 m ρ c (Proc.devRef .tc main_v14) = dinv m c :=
  (StretchA.w_v14 (W1 m ρ c)).trans (by rw [W1_v12 m ρ c, W1_v13 m ρ c, W1_cst_2 m ρ c]; rfl)

/-! ## The first layer -/

/-- Region 0 leaves the product of the features and the first weights: the host's contraction of the two. -/
theorem W3_v15 : W3 m ρ c (Proc.devRef .tc main_v15) = xw1 m c :=
  (W3_arr m ρ c 2).trans ((Region0.final_of (V2 m ρ) c _ _ (W2_arg0 m ρ c) (W2_arg2 m ρ c)).trans
    (dotGeneral_eq_matProd plainR1 none _ _).symm)
theorem W3_v3 : W3 m ρ c (Proc.devRef .tc main_v3) = src m c :=
  (W3_of_ne m ρ c main_v3 (by decide)).trans (W2_v3 m ρ c)
theorem W3_v6 : W3 m ρ c (Proc.devRef .tc main_v6) = dst m c :=
  (W3_of_ne m ρ c main_v6 (by decide)).trans (W2_v6 m ρ c)
theorem W3_v14 : W3 m ρ c (Proc.devRef .tc main_v14) = dinv m c :=
  (W3_of_ne m ρ c main_v14 (by decide)).trans (W2_v14 m ρ c)
theorem W3_arg3 : W3 m ρ c (Proc.devRef .tc main_arg3) = aB1 m c :=
  (W3_of_ne m ρ c main_arg3 (by decide)).trans (W2_arg3 m ρ c)
theorem W3_arg4 : W3 m ρ c (Proc.devRef .tc main_arg4) = aW2 m c :=
  (W3_of_ne m ρ c main_arg4 (by decide)).trans (W2_arg4 m ρ c)
theorem W3_arg5 : W3 m ρ c (Proc.devRef .tc main_arg5) = aB2 m c :=
  (W3_of_ne m ρ c main_arg5 (by decide)).trans (W2_arg5 m ρ c)
theorem W4_v38 : W4 m ρ c (Proc.devRef .tc main_v38) = gatherRows (xw1 m c) (src m c) :=
  (StretchB.g_v38 (W3 m ρ c)).trans (by rw [W3_v15 m ρ c, W3_v3 m ρ c])
theorem W4_v31 : W4 m ρ c (Proc.devRef .tc main_v31) = shapeCast S850000x1 (norm m c) shapeCasts_S850000_S850000x1 :=
  (StretchB.g_v31 (W3 m ρ c)).trans (by rw [W3_v14 m ρ c, W3_v3 m ρ c, W3_v6 m ρ c])
theorem W4_v3 : W4 m ρ c (Proc.devRef .tc main_v3) = src m c :=
  (StretchB.g_v3 (W3 m ρ c)).trans (W3_v3 m ρ c)
theorem W4_v6 : W4 m ρ c (Proc.devRef .tc main_v6) = dst m c :=
  (StretchB.g_v6 (W3 m ρ c)).trans (W3_v6 m ρ c)
theorem W4_v14 : W4 m ρ c (Proc.devRef .tc main_v14) = dinv m c :=
  (StretchB.g_v14 (W3 m ρ c)).trans (W3_v14 m ρ c)
theorem W4_arg3 : W4 m ρ c (Proc.devRef .tc main_arg3) = aB1 m c :=
  (StretchB.g_arg3 (W3 m ρ c)).trans (W3_arg3 m ρ c)
theorem W4_arg4 : W4 m ρ c (Proc.devRef .tc main_arg4) = aW2 m c :=
  (StretchB.g_arg4 (W3 m ρ c)).trans (W3_arg4 m ρ c)
theorem W4_arg5 : W4 m ρ c (Proc.devRef .tc main_arg5) = aB2 m c :=
  (StretchB.g_arg5 (W3 m ρ c)).trans (W3_arg5 m ρ c)
/-- Region 1 leaves the gathered rows scaled by the edge weights: the host's product with the weights broadcast. -/
theorem W5_v39 : W5 m ρ c (Proc.devRef .tc main_v39) = msgOf (gatherRows (xw1 m c) (src m c)) (norm m c) :=
  (W5_arr m ρ c 2).trans ((Region1.final_of (V4 m ρ) c _ _ (W4_v38 m ρ c) (W4_v31 m ρ c)).trans
    (mulf_bcast_col_eq_scaleRows Cert.ReferenceIdeal.Gen.bcast_S850000_S850000x1_0 Cert.ReferenceIdeal.Gen.bcast_S850000x1_S850000x128_0_1
      shapeCasts_S850000_S850000x1 _ _).symm)
theorem W5_v3 : W5 m ρ c (Proc.devRef .tc main_v3) = src m c :=
  (W5_of_ne m ρ c main_v3 (by decide)).trans (W4_v3 m ρ c)
theorem W5_v6 : W5 m ρ c (Proc.devRef .tc main_v6) = dst m c :=
  (W5_of_ne m ρ c main_v6 (by decide)).trans (W4_v6 m ρ c)
theorem W5_v14 : W5 m ρ c (Proc.devRef .tc main_v14) = dinv m c :=
  (W5_of_ne m ρ c main_v14 (by decide)).trans (W4_v14 m ρ c)
theorem W5_arg3 : W5 m ρ c (Proc.devRef .tc main_arg3) = aB1 m c :=
  (W5_of_ne m ρ c main_arg3 (by decide)).trans (W4_arg3 m ρ c)
theorem W5_arg4 : W5 m ρ c (Proc.devRef .tc main_arg4) = aW2 m c :=
  (W5_of_ne m ρ c main_arg4 (by decide)).trans (W4_arg4 m ρ c)
theorem W5_arg5 : W5 m ρ c (Proc.devRef .tc main_arg5) = aB2 m c :=
  (W5_of_ne m ρ c main_arg5 (by decide)).trans (W4_arg5 m ρ c)
theorem W6_v42 : W6 m ρ c (Proc.devRef .tc main_v42) = convOf (xw1 m c) (aE m c) :=
  (StretchC.s_v42 (W5 m ρ c)).trans (by rw [W5_v39 m ρ c, W5_v6 m ρ c]; rfl)
theorem W6_v43 : W6 m ρ c (Proc.devRef .tc main_v43) = shapeCast S1x128 (aB1 m c) shapeCasts_S128_S1x128 :=
  (StretchC.s_v43 (W5 m ρ c)).trans (by rw [W5_arg3 m ρ c])
theorem W6_v3 : W6 m ρ c (Proc.devRef .tc main_v3) = src m c :=
  (StretchC.s_v3 (W5 m ρ c)).trans (W5_v3 m ρ c)
theorem W6_v6 : W6 m ρ c (Proc.devRef .tc main_v6) = dst m c :=
  (StretchC.s_v6 (W5 m ρ c)).trans (W5_v6 m ρ c)
theorem W6_v14 : W6 m ρ c (Proc.devRef .tc main_v14) = dinv m c :=
  (StretchC.s_v14 (W5 m ρ c)).trans (W5_v14 m ρ c)
theorem W6_arg4 : W6 m ρ c (Proc.devRef .tc main_arg4) = aW2 m c :=
  (StretchC.s_arg4 (W5 m ρ c)).trans (W5_arg4 m ρ c)
theorem W6_arg5 : W6 m ρ c (Proc.devRef .tc main_arg5) = aB2 m c :=
  (StretchC.s_arg5 (W5 m ρ c)).trans (W5_arg5 m ρ c)
/-- Region 2 leaves the aggregate plus the bias row, clamped below at zero: the first layer's result. -/
theorem W7_v44 : W7 m ρ c (Proc.devRef .tc main_v44) = hid m c :=
  (W7_arr m ρ c 2).trans ((Region2.final_of (V6 m ρ) c _ _ (W6_v42 m ρ c) (W6_v43 m ρ c)).trans
    (maximumf_addf_bcast_row_eq_addRowClamp Cert.ReferenceIdeal.Gen.bcast_S128_S1x128_1 Cert.ReferenceIdeal.Gen.bcast_S1x128_S50000x128_0_1
      shapeCasts_S128_S1x128 Cert.ReferenceIdeal.Gen.bcast_S_S50000x128 _ _).symm)
theorem W7_v3 : W7 m ρ c (Proc.devRef .tc main_v3) = src m c :=
  (W7_of_ne m ρ c main_v3 (by decide)).trans (W6_v3 m ρ c)
theorem W7_v6 : W7 m ρ c (Proc.devRef .tc main_v6) = dst m c :=
  (W7_of_ne m ρ c main_v6 (by decide)).trans (W6_v6 m ρ c)
theorem W7_v14 : W7 m ρ c (Proc.devRef .tc main_v14) = dinv m c :=
  (W7_of_ne m ρ c main_v14 (by decide)).trans (W6_v14 m ρ c)
theorem W7_arg4 : W7 m ρ c (Proc.devRef .tc main_arg4) = aW2 m c :=
  (W7_of_ne m ρ c main_arg4 (by decide)).trans (W6_arg4 m ρ c)
theorem W7_arg5 : W7 m ρ c (Proc.devRef .tc main_arg5) = aB2 m c :=
  (W7_of_ne m ρ c main_arg5 (by decide)).trans (W6_arg5 m ρ c)

/-! ## The second layer -/

/-- Region 3 leaves the product of the first layer's result and the second weights. -/
theorem W8_v45 : W8 m ρ c (Proc.devRef .tc main_v45) = xw2 m c :=
  (W8_arr m ρ c 2).trans ((Region3.final_of (V7 m ρ) c _ _ (W7_v44 m ρ c) (W7_arg4 m ρ c)).trans
    (dotGeneral_eq_matProd plainR2 none _ _).symm)
theorem W8_v3 : W8 m ρ c (Proc.devRef .tc main_v3) = src m c :=
  (W8_of_ne m ρ c main_v3 (by decide)).trans (W7_v3 m ρ c)
theorem W8_v6 : W8 m ρ c (Proc.devRef .tc main_v6) = dst m c :=
  (W8_of_ne m ρ c main_v6 (by decide)).trans (W7_v6 m ρ c)
theorem W8_v14 : W8 m ρ c (Proc.devRef .tc main_v14) = dinv m c :=
  (W8_of_ne m ρ c main_v14 (by decide)).trans (W7_v14 m ρ c)
theorem W8_arg5 : W8 m ρ c (Proc.devRef .tc main_arg5) = aB2 m c :=
  (W8_of_ne m ρ c main_arg5 (by decide)).trans (W7_arg5 m ρ c)
theorem W9_v68 : W9 m ρ c (Proc.devRef .tc main_v68) = gatherRows (xw2 m c) (src m c) :=
  (StretchD.g_v68 (W8 m ρ c)).trans (by rw [W8_v45 m ρ c, W8_v3 m ρ c])
theorem W9_v61 : W9 m ρ c (Proc.devRef .tc main_v61) = shapeCast S850000x1 (norm m c) shapeCasts_S850000_S850000x1 :=
  (StretchD.g_v61 (W8 m ρ c)).trans (by rw [W8_v14 m ρ c, W8_v3 m ρ c, W8_v6 m ρ c])
theorem W9_v6 : W9 m ρ c (Proc.devRef .tc main_v6) = dst m c :=
  (StretchD.g_v6 (W8 m ρ c)).trans (W8_v6 m ρ c)
theorem W9_arg5 : W9 m ρ c (Proc.devRef .tc main_arg5) = aB2 m c :=
  (StretchD.g_arg5 (W8 m ρ c)).trans (W8_arg5 m ρ c)
/-- Region 4 leaves the gathered rows scaled by the edge weights. -/
theorem W10_v69 : W10 m ρ c (Proc.devRef .tc main_v69) = msgOf (gatherRows (xw2 m c) (src m c)) (norm m c) :=
  (W10_arr m ρ c 2).trans ((Region4.final_of (V9 m ρ) c _ _ (W9_v68 m ρ c) (W9_v61 m ρ c)).trans
    (mulf_bcast_col_eq_scaleRows Cert.ReferenceIdeal.Gen.bcast_S850000_S850000x1_0 Cert.ReferenceIdeal.Gen.bcast_S850000x1_S850000x128_0_1
      shapeCasts_S850000_S850000x1 _ _).symm)
theorem W10_v6 : W10 m ρ c (Proc.devRef .tc main_v6) = dst m c :=
  (W10_of_ne m ρ c main_v6 (by decide)).trans (W9_v6 m ρ c)
theorem W10_arg5 : W10 m ρ c (Proc.devRef .tc main_arg5) = aB2 m c :=
  (W10_of_ne m ρ c main_arg5 (by decide)).trans (W9_arg5 m ρ c)
theorem W11_v72 : W11 m ρ c (Proc.devRef .tc main_v72) = convOf (xw2 m c) (aE m c) :=
  (StretchC.s_v72 (W10 m ρ c)).trans (by rw [W10_v69 m ρ c, W10_v6 m ρ c]; rfl)
theorem W11_v73 : W11 m ρ c (Proc.devRef .tc main_v73) = shapeCast S1x128 (aB2 m c) shapeCasts_S128_S1x128 :=
  (StretchC.s_v73 (W10 m ρ c)).trans (by rw [W10_arg5 m ρ c])
/-- Region 5 leaves the second aggregate plus the second bias row: the two-layer convolution of the arguments. -/
theorem W12_v74 : W12 m ρ c (Proc.devRef .tc main_v74) = outOf (aZ m c) (aE m c) (aW1 m c) (aB1 m c) (aW2 m c) (aB2 m c) :=
  (W12_arr m ρ c 2).trans ((Region5.final_of (V11 m ρ) c _ _ (W11_v72 m ρ c) (W11_v73 m ρ c)).trans
    (addf_bcast_row_eq_addRow Cert.ReferenceIdeal.Gen.bcast_S128_S1x128_1 Cert.ReferenceIdeal.Gen.bcast_S1x128_S50000x128_0_1
      shapeCasts_S128_S1x128 _ _).symm)

end Cert.KernelIdeal.Chain

end
-- ==== Proof.lean ====
/-
  A two-layer graph convolution on 50000 nodes and 850000 edges (the 800000 given ones and a self-loop per node), tiled
  into six kernels, against the same convolution written with whole-array operations.

  The kernel computes each layer as: a tiled product of the features with a weight matrix (five blocks of 10000 rows,
  the operands rounded to a narrower format before the product), the product's rows gathered at the edges' sources, a
  tiled scaling of the gathered rows by the edge weights (85 blocks of 10000 edges), the scaled rows added up at the
  edges' destinations, and a tiled addition of the bias row (five blocks), followed after the first layer by the
  maximum with zero.  The reference computes the same with one contraction, one broadcast product and one broadcast sum
  per layer, and recomputes the degrees for the second layer.

  Over the extended reals a change of format is the identity, a block-wise product is the whole product restricted to
  the block's rows, and the edge weights cast to a column are the edge weights broadcast to a column; the gathers and
  the scatter-additions are the same operations of the same operands on both sides.  So both programs end with the one
  function `outOf` of the six arguments, entry by entry, and no step uses that an entry is finite.

  The three frames: the two kernels' runs terminate without a fault and leave the arguments as launched; the
  reference's run does the same, being a straight line of host operations.  The idealization rewrote nothing.
-/
import proofs.«124668_j44135083933972_1_alg».proof.Defs
import proofs.«124668_j44135083933972_1_alg».proof.Proof.Gen.Kernel
import proofs.«124668_j44135083933972_1_alg».proof.Proof.Gen.Kernel.Frame
import proofs.«124668_j44135083933972_1_alg».proof.Proof.Gen.KernelIdeal
import proofs.«124668_j44135083933972_1_alg».proof.Proof.Gen.KernelIdeal.Frame
import proofs.«124668_j44135083933972_1_alg».proof.Proof.Gen.ReferenceIdeal
import proofs.«124668_j44135083933972_1_alg».proof.Proof.Gen.Pre_finite_inputs
import proofs.«124668_j44135083933972_1_alg».proof.Proof.RefRun
import proofs.«124668_j44135083933972_1_alg».proof.Proof.Spec
import proofs.«124668_j44135083933972_1_alg».proof.Proof.KernelRun
import proofs.«124668_j44135083933972_1_alg».proof.Proof.Chain

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the six arguments both idealized programs end with the two-layer convolution `outOf` of
    those arguments in their result buffers: the kernel's last boundary holds it, and the reference's composed term is it. -/
theorem algebraic : Cert.algebraic_KernelIdeal_ReferenceIdeal := by
  intro m ρ m' ρ' _ hagree
  refine ⟨fun c => Cert.ReferenceIdeal.Spec.outOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.W12_v74 m ρ c), (h c).2⟩)
      (Cert.KernelIdeal.ValueRun.run_last (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Spec.res_eq m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
